-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S384x128 : Shape := ⟨2, ![384, 128]⟩
abbrev S384 : Shape := ⟨1, ![384]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S128x165 : S_.BroadcastsInDim S128x165 (![] : Fin 0 → Fin S128x165.rank)
  reducesTo_S128x165_S_d0_1 : S128x165.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S384 .f32) (main_arg13 : FVec F S384 .f32) (main_arg14 : FVec F S2x128 .f32) (main_arg15 : FVec F S2 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S384 .f32 := Host.absf main_arg12
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S2x128 .f32 := Host.absf main_arg14
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S384x128 .f32) (main_arg11 : FVec F S384x128 .f32) (main_arg12 : FVec F S384 .f32) (main_arg13 : FVec F S384 .f32) (main_arg14 : FVec F S2x128 .f32) (main_arg15 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384x128 .f32 := Host.absf main_arg11
  let main_cst_18 : FVec F S_ .f32 := constant S_ .f32 0x7F800000#32
  let main_v50 : FVec F S384x128 .f32 := broadcastInDim S384x128 ![] bcast_S_S384x128 main_cst_18
  fn_part3 (F := F) main_arg12 main_arg13 main_arg14 main_arg15 main_v48 main_v49 main_v50

def fn_part1 {F : FTy → Type} [FloatOps F] (main_arg5 : FVec F S384x128 .f32) (main_arg6 : FVec F S384 .f32) (main_arg7 : FVec F S384 .f32) (main_arg8 : FVec F S128x128 .f32) (main_arg9 : FVec F S128 .f32) (main_arg10 : FVec F S384x128 .f32) (main_arg11 : FVec F S384x128 .f32) (main_arg12 : FVec F S384 .f32) (main_arg13 : FVec F S384 .f32) (main_arg14 : FVec F S2x128 .f32) (main_arg15 : FVec F S2 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x165 .f32) (main_arg1 : IVec S2x1600000 32) (main_arg2 : FVec F S128x165 .f32) (main_arg3 : FVec F S128 .f32) (main_arg4 : FVec F S384x128 .f32) (main_arg5 : FVec F S384x128 .f32) (main_arg6 : FVec F S384 .f32) (main_arg7 : FVec F S384 .f32) (main_arg8 : FVec F S128x128 .f32) (main_arg9 : FVec F S128 .f32) (main_arg10 : FVec F S384x128 .f32) (main_arg11 : FVec F S384x128 .f32) (main_arg12 : FVec F S384 .f32) (main_arg13 : FVec F S384 .f32) (main_arg14 : FVec F S2x128 .f32) (main_arg15 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S128x165 .f32 := Host.absf main_arg2
  let main_cst_0 : FVec F S_ .f32 := constant S_ .f32 0x7F800000#32
  let main_v5 : FVec F S128x165 .f32 := broadcastInDim S128x165 ![] bcast_S_S128x165 main_cst_0
  let main_v6 : IVec S128x165 1 := cmpf .olt main_v4 main_v5
  let main_c_1 : IVec S_ 1 := constantI S_ 1 1#1
  let main_v7 : IVec S_ 1 := (fun x v => Host.reduce IntOp.andi x v reducesTo_S128x165_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S384x128 : Shape := ⟨2, ![384, 128]⟩
abbrev S384 : Shape := ⟨1, ![384]⟩
abbrev S128x128 : Shape := ⟨2, ![128, 128]⟩
abbrev S2x128 : Shape := ⟨2, ![2, 128]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S165x128 : Shape := ⟨2, ![165, 128]⟩
abbrev S100000x128 : Shape := ⟨2, ![100000, 128]⟩
abbrev S2000x165 : Shape := ⟨2, ![2000, 165]⟩
abbrev S2000x128 : Shape := ⟨2, ![2000, 128]⟩
abbrev S1700000x128 : Shape := ⟨2, ![1700000, 128]⟩
abbrev S128x384 : Shape := ⟨2, ![128, 384]⟩
abbrev S1x128 : Shape := ⟨2, ![1, 128]⟩
abbrev S2000x384 : Shape := ⟨2, ![2000, 384]⟩
abbrev S1x384 : Shape := ⟨2, ![1, 384]⟩
abbrev S128x2 : Shape := ⟨2, ![128, 2]⟩
abbrev S100000x2 : Shape := ⟨2, ![100000, 2]⟩
abbrev S2000x2 : Shape := ⟨2, ![2000, 2]⟩
abbrev S1x2 : Shape := ⟨2, ![1, 2]⟩

abbrev nBuf : Space → Nat
  | .hbm => 99
  | .vmem => 28
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S128x165, .f32⟩
  | .hbm, ⟨3, _⟩ => ⟨S128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S2x128, .f32⟩
  | .hbm, ⟨15, _⟩ => ⟨S2, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000, .f32⟩
  | .hbm, ⟨58, _⟩ => ⟨S1700000, .f32⟩
  | .hbm, ⟨59, _⟩ => ⟨S1700000x1, .f32⟩
  | .hbm, ⟨60, _⟩ => ⟨S165x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S128x384, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S128x384, .f32⟩
  | .hbm, ⟨97, _⟩ => ⟨S128x2, .f32⟩
  | .hbm, ⟨98, _⟩ => ⟨S100000x2, .f32⟩
  | .local _ .vmem, ⟨0, _⟩ => ⟨S2000x165, .f32⟩
  | .local _ .vmem, ⟨1, _⟩ => ⟨S2000x165, .f32⟩
  | .local _ .vmem, ⟨2, _⟩ => ⟨S165x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S128x384, .f32⟩
  | .local _ .vmem, ⟨9, _⟩ => ⟨S384, .f32⟩
  | .local _ .vmem, ⟨10, _⟩ => ⟨S384, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128, .f32⟩
  | .local _ .vmem, ⟨21, _⟩ => ⟨S128x384, .f32⟩
  | .local _ .vmem, ⟨22, _⟩ => ⟨S384, .f32⟩
  | .local _ .vmem, ⟨23, _⟩ => ⟨S384, .f32⟩
  | .local _ .vmem, ⟨24, _⟩ => ⟨S128x2, .f32⟩
  | .local _ .vmem, ⟨25, _⟩ => ⟨S2, .f32⟩
  | .local _ .vmem, ⟨26, _⟩ => ⟨S2000x2, .f32⟩
  | .local _ .vmem, ⟨27, _⟩ => ⟨S2000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_c_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem7_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x2 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x165_S165x128_1_0 : S128x165.Transposes [1, 0] S165x128
  inb_S2000x165_S2000x165_0_0 : ∀ a, (![0, 0] : Fin 2 → Nat) a + S2000x165.size a ≤ S2000x165.size a
  h_S2000x165 : 0 < S2000x165.numel
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  shapeCasts_S165x128_S165x128 : S165x128.ShapeCasts S165x128
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S384x128_S128x384_1_0 : S384x128.Transposes [1, 0] S128x384
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S384_o0_S128 : S384.Slices ![0] S128
  slices_S384_o128_S128 : S384.Slices ![128] S128
  slices_S384_o256_S128 : S384.Slices ![256] S128
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S2x128_S128x2_1_0 : S2x128.Transposes [1, 0] S128x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x165_S165x128_S2000x128_1_0_0_1_n_n_wf : DotDims.WF S2000x165 S165x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x384_S2000x384_1_0_0_1_n_n_wf : DotDims.WF S2000x128 S128x384 S2000x384 [1] [0] [0] [1] [] []
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x165.size a ≤ S100000x165.size a
  hwx0_0 : ∀ i : grid0.Coords, EltTy.bits .f32 = 32 ∨ (Rect.block (s := S100000x165) S2000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x128.size a ≤ S165x128.size a
  hwx0_1 : ∀ i : grid0.Coords, EltTy.bits .f32 = 32 ∨ (Rect.block (s := S165x128) S165x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384.size a ≤ S384.size a
  hwx1_3 : ∀ i : grid1.Coords, EltTy.bits .f32 = 32 ∨ (Rect.block (s := S384) S384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384.size a ≤ S384.size a
  hwx1_4 : ∀ i : grid1.Coords, EltTy.bits .f32 = 32 ∨ (Rect.block (s := S384) S384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384.size a ≤ S384.size a
  hwx3_3 : ∀ i : grid3.Coords, EltTy.bits .f32 = 32 ∨ (Rect.block (s := S384) S384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S384.size a ≤ S384.size a
  hwx3_4 : ∀ i : grid3.Coords, EltTy.bits .f32 = 32 ∨ (Rect.block (s := S384) S384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .f32 = 32 ∨ (Rect.block (s := S128x2) S128x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2.size a ≤ S2.size a
  hwx3_6 : ∀ i : grid3.Coords, EltTy.bits .f32 = 32 ∨ (Rect.block (s := S2) S2.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x2.size a ≤ S100000x2.size a
  hwx3_7 : ∀ i : grid3.Coords, EltTy.bits .f32 = 32 ∨ (Rect.block (s := S100000x2) S2000x2.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x165_S165x128_S2000x128_1_0_0_1_n_n : DotDims S2000x165 S165x128 S2000x128 where
  lhsContracting := [1]
  rhsContracting := [0]
  lhsNonContracting := [0]
  rhsNonContracting := [1]
  lhsBatch := []
  rhsBatch := []
  wf := dot_S2000x165_S165x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S165x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S128x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v65) S2000x2.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S384x128 : Shape := ⟨2, ![384, 128]⟩
abbrev S384 : Shape := ⟨1, ![384]⟩
abbrev S128x128 : Shape := ⟨2, ![128, 128]⟩
abbrev S2x128 : Shape := ⟨2, ![2, 128]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S165x128 : Shape := ⟨2, ![165, 128]⟩
abbrev S100000x128 : Shape := ⟨2, ![100000, 128]⟩
abbrev S1700000x128 : Shape := ⟨2, ![1700000, 128]⟩
abbrev S1x128 : Shape := ⟨2, ![1, 128]⟩
abbrev S128x384 : Shape := ⟨2, ![128, 384]⟩
abbrev S100000x384 : Shape := ⟨2, ![100000, 384]⟩
abbrev S1x384 : Shape := ⟨2, ![1, 384]⟩
abbrev S128x2 : Shape := ⟨2, ![128, 2]⟩
abbrev S100000x2 : Shape := ⟨2, ![100000, 2]⟩
abbrev S1x2 : Shape := ⟨2, ![1, 2]⟩

abbrev nBuf : Space → Nat
  | .hbm => 195
  | .vmem => 0
  | .smem => 0
  | _ => 0

abbrev hbmTy0_0 (i : Nat) : BufTy := match i % 128 with
  | 0 => ⟨S100000x165, .f32⟩
  | 1 => ⟨S2x1600000, .i32⟩
  | 2 => ⟨S128x165, .f32⟩
  | 3 => ⟨S128, .f32⟩
  | 4 => ⟨S384x128, .f32⟩
  | 5 => ⟨S384x128, .f32⟩
  | 6 => ⟨S384, .f32⟩
  | 7 => ⟨S384, .f32⟩
  | 8 => ⟨S128x128, .f32⟩
  | 9 => ⟨S128, .f32⟩
  | 10 => ⟨S384x128, .f32⟩
  | 11 => ⟨S384x128, .f32⟩
  | 12 => ⟨S384, .f32⟩
  | 13 => ⟨S384, .f32⟩
  | 14 => ⟨S2x128, .f32⟩
  | 15 => ⟨S2, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S1700000x1, .f32⟩
  | 60 => ⟨S165x128, .f32⟩
  | 61 => ⟨S100000x128, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S128x384, .f32⟩
  | 84 => ⟨S100000x384, .f32⟩
  | 85 => ⟨S1x384, .f32⟩
  | 86 => ⟨S100000x384, .f32⟩
  | 87 => ⟨S100000x384, .f32⟩
  | 88 => ⟨S100000x128, .f32⟩
  | 89 => ⟨S100000x128, .f32⟩
  | 90 => ⟨S100000x128, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S128x128, .f32⟩
  | 126 => ⟨S100000x128, .f32⟩
  | 127 => ⟨S_, .i32⟩
  | _ => ⟨S100000x165, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x128, .f32⟩
  | 8 => ⟨S1700000x128, .f32⟩
  | 9 => ⟨S1700000x128, .f32⟩
  | 10 => ⟨S_, .f32⟩
  | 11 => ⟨S100000x128, .f32⟩
  | 12 => ⟨S1700000x1, .i32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S128x384, .f32⟩
  | 21 => ⟨S100000x384, .f32⟩
  | 22 => ⟨S1x384, .f32⟩
  | 23 => ⟨S100000x384, .f32⟩
  | 24 => ⟨S100000x384, .f32⟩
  | 25 => ⟨S100000x128, .f32⟩
  | 26 => ⟨S100000x128, .f32⟩
  | 27 => ⟨S100000x128, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S100000x128, .f32⟩
  | 62 => ⟨S128x2, .f32⟩
  | 63 => ⟨S100000x2, .f32⟩
  | 64 => ⟨S1x2, .f32⟩
  | 65 => ⟨S100000x2, .f32⟩
  | 66 => ⟨S100000x2, .f32⟩
  | _ => ⟨S100000x165, .f32⟩

abbrev hbmTy (i : Nat) : BufTy := match i / 128 with
  | 0 => hbmTy0_0 i
  | 1 => hbmTy0_1 i
  | _ => ⟨S100000x165, .f32⟩

abbrev bufTy : (tb : Table) → Fin (tcTables nBuf tb) → BufTy
  | .hbm, ⟨i, _⟩ => hbmTy i
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call1_cst : Ref sig .tc := ⟨.hbm, 80, rfl⟩
abbrev main_call1_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_cst_13 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_14 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_15 : Ref sig .tc := ⟨.hbm, 127, rfl⟩
abbrev main_v90 : Ref sig .tc := ⟨.hbm, 128, rfl⟩
abbrev main_v91 : Ref sig .tc := ⟨.hbm, 129, rfl⟩
abbrev main_c_16 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_17 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call2_cst : Ref sig .tc := ⟨.hbm, 145, rfl⟩
abbrev main_call2_v0 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_18 : Ref sig .tc := ⟨.hbm, 164, rfl⟩
abbrev main_v122 : Ref sig .tc := ⟨.hbm, 165, rfl⟩
abbrev main_v123 : Ref sig .tc := ⟨.hbm, 166, rfl⟩
abbrev main_cst_19 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_20 : Ref sig .tc := ⟨.hbm, 175, rfl⟩
abbrev main_v131 : Ref sig .tc := ⟨.hbm, 176, rfl⟩
abbrev main_v132 : Ref sig .tc := ⟨.hbm, 177, rfl⟩
abbrev main_cst_21 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_22 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x165_S165x128_1_0 : S128x165.Transposes [1, 0] S165x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S384_S128_0 : S384.Slices ![0] S128
  slices_S384_S128_128 : S384.Slices ![128] S128
  slices_S384_S128_256 : S384.Slices ![256] S128
  transposes_S128x128_S128x128_1_0 : S128x128.Transposes [1, 0] S128x128
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x165_S165x128_S100000x128_1_0_0_1_n_n_wf : DotDims.WF S100000x165 S165x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x384_S100000x384_1_0_0_1_n_n_wf : DotDims.WF S100000x128 S128x384 S100000x384 [1] [0] [0] [1] [] []
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRunWhole.lean ====
/-
  The idealized kernel's run, with the whole final memory named.

  @main is ten segments: stretches of host operations around four kernel regions.  The contents of every
  unscoped buffer at each segment boundary form a fold through @main from the launch memory; the last
  boundary's contents are `Gen.W10`.  The run below says that every weakly fair execution terminates, without
  a fault, in a memory that agrees with `Gen.W10` on every unscoped buffer.  The result array and the sixteen
  argument arrays are among those buffers, so the value of the result and the frame both follow from it.
-/
import proofs.«153861_j44822278701843_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and the final memory holds, at every
    unscoped buffer of every core, the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The result array is an unscoped buffer. -/
theorem v65_mem : (Proc.devRef .tc main_v65 : DevRef τ sig) ∈ Pipeline.ucRefs τ sig := mem_uc main_v65 (by decide)

end Cert.KernelIdeal.Whole

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.LibGru.lean ====
/-
  One layer's arithmetic on a single node, on the extended reals.

  A node's aggregated features `row` (128 numbers) pass through: the bias and the rectifier,
  `h k = max (row k + b k) 0`; the input-to-gates product, `gi q = Σ k, h k · wt k q + bih q` for the 384 gate
  pre-activations (reset, update, candidate: three groups of 128); and the gated recurrent cell at a zero previous
  state, `out j = (1 − σ(gi (128 + j) + bhh (128 + j))) · tanh (gi (256 + j) + σ(gi j + bhh j) · bhh (256 + j))`,
  with `σ x = 1 / (1 + e⁻ˣ)`.  The zero and the one are kept as the values of their bit patterns.
-/
import Idealize.ShloMosaic.PureOps.Ideal.Laws

noncomputable section

open scoped BigOperators

namespace Cert.Lib.Gru

open Idealize.ShloMosaic

/-- The 384 gate pre-activations of one node. -/
def gates (row b : Fin 128 → EReal) (wt : Fin 128 → Fin 384 → EReal) (bih : Fin 384 → EReal) (q : Fin 384) : EReal :=
  (∑ k : Fin 128, max (row k + b k) (Ideal.ofBits .f32 0x00000000#32) * wt k q) + bih q

/-- The logistic function, as the quotient the host spells. -/
def sigm (x : EReal) : EReal :=
  Ideal.div (Ideal.ofBits .f32 0x3F800000#32) (Ideal.ofBits .f32 0x3F800000#32 + Ideal.exp (-x))

/-- The cell's output at hidden unit `j`, from the node's gate pre-activations and the hidden-side biases. -/
def cell (gi bhh : Fin 384 → EReal) (j : Fin 128) : EReal :=
  (Ideal.ofBits .f32 0x3F800000#32 - sigm (gi ⟨128 + j.val, by have := j.isLt; omega⟩ + bhh ⟨128 + j.val, by have := j.isLt; omega⟩))
    * Ideal.tanh (gi ⟨256 + j.val, by have := j.isLt; omega⟩
        + sigm (gi ⟨0 + j.val, by have := j.isLt; omega⟩ + bhh ⟨0 + j.val, by have := j.isLt; omega⟩) * bhh ⟨256 + j.val, by have := j.isLt; omega⟩)

/-- The bit pattern `0x3F800000` is the number one. -/
theorem ofBits_one : Ideal.ofBits .f32 0x3F800000#32 = (1 : EReal) := by
  simp [Ideal.ofBits, Ideal.ieee, -EReal.coe_mul]; norm_num

/-- The kernel's logistic operation is the host's quotient. -/
theorem logistic_eq_sigm (x : EReal) : Ideal.logistic x = sigm x := by
  unfold sigm Ideal.logistic
  rw [ofBits_one]

end Cert.Lib.Gru

end
-- ==== Proof.KernelBodies.lean ====
/-
  The kernels' bodies at an index, at the ideal values.

  Each of the four kernel bodies stores one value: a pure function of the blocks it loads.  The two transform
  kernels store the plain product of the row block with the whole (already transposed) weight; the layer kernel
  stores bias, rectifier, gate product and gated cell of its row block; the last kernel continues with the
  product by the head's weight and the head's bias.  Read at a row `y` of the block and a column, each is the same
  function of row `y` of the row block as the reference's stage is of a node's row: a sum over the contracted
  axis, or `Gru.cell (Gru.gates row …)`.  A change of float format is the identity at the ideal values.
-/
import proofs.«153861_j44822278701843_1_alg».proof.Proof.Gen.KernelIdeal.Skeleton
import proofs.«153861_j44822278701843_1_alg».proof.Proof.LibRowOps
import proofs.«153861_j44822278701843_1_alg».proof.Proof.LibGru

noncomputable section

open scoped BigOperators

namespace Cert.KernelIdeal.Body

open Cert.KernelIdeal Cert.KernelIdeal.Facts₀ Idealize.ShloMosaic Idealize.ShloMosaic.ValueIdx Cert.Lib

variable {F : FTy → Type} [FloatOps F]

/-! ## The layer kernel's body in two parts -/

/-- A vector of length 128 spread over the block's rows. -/
def rows (v : FVec F S128 .f32) : FVec F S2000x128 .f32 :=
  broadcastTo S2000x128 (shapeCast S1x128 v shapeCasts_S128_S1x128) broadcasts_S1x128_S2000x128

/-- Bias and rectifier of the row block. -/
def hidden (x0 : Vec F S2000x128 .f32) (b : Vec F S128 .f32) : FVec F S2000x128 .f32 :=
  maximumf (addf (shapeCast S2000x128 x0 shapeCasts_S2000x128_S2000x128) (rows b)) (broadcast S2000x128 (Scalar.ofBits .f32 0x00000000#32))

/-- The gate pre-activations of the block's rows. -/
def gatesBlk (x0 : Vec F S2000x128 .f32) (b : Vec F S128 .f32) (wt : Vec F S128x384 .f32) (bih : Vec F S384 .f32) :
    FVec F S2000x384 .f32 :=
  addf
    (matmul dot_S2000x128_S128x384_S2000x384_1_0_0_1_n_n none (truncf .bf16 (hidden x0 b) bitsLt_bf16_f32)
      (truncf .bf16 (shapeCast S128x384 wt shapeCasts_S128x384_S128x384) bitsLt_bf16_f32) (constant S2000x384 .f32 0x00000000#32))
    (broadcastTo S2000x384 (shapeCast S1x384 bih shapeCasts_S384_S1x384) broadcasts_S1x384_S2000x384)

/-- The gated cell over the block's rows. -/
def cellBlk (gi : FVec F S2000x384 .f32) (bhh : Vec F S384 .f32) : FVec F S2000x128 .f32 :=
  mulf
    (subf (broadcast S2000x128 (Scalar.ofBits .f32 0x3F800000#32))
      (logistic (addf (extractStridedSlice S2000x128 ![0, 128] gi slices_S2000x384_o0_128_S2000x128)
        (rows (extractStridedSlice S128 ![128] bhh slices_S384_o128_S128)))))
    (tanh (addf (extractStridedSlice S2000x128 ![0, 256] gi slices_S2000x384_o0_256_S2000x128)
      (mulf
        (logistic (addf (extractStridedSlice S2000x128 ![0, 0] gi slices_S2000x384_o0_0_S2000x128)
          (rows (extractStridedSlice S128 ![0] bhh slices_S384_o0_S128))))
        (rows (extractStridedSlice S128 ![256] bhh slices_S384_o256_S128)))))

/-- The layer kernel stores the cell of the gates of its blocks. -/
theorem k1_pay1_eq (x0 : Vec F S2000x128 .f32) (b : Vec F S128 .f32) (wt : Vec F S128x384 .f32) (bih bhh : Vec F S384 .f32) :
    Gen.k1_pay1 x0 b wt bih bhh = cellBlk (gatesBlk x0 b wt bih) bhh := rfl

/-- The last kernel stores the head of the cell of the gates of its blocks. -/
theorem k3_pay_eq (x0 : Vec F S2000x128 .f32) (b : Vec F S128 .f32) (wt : Vec F S128x384 .f32) (bih bhh : Vec F S384 .f32)
    (wl : Vec F S128x2 .f32) (bl : Vec F S2 .f32) :
    Gen.k3_pay1 (Gen.k3_pay2 x0 b wt bih bhh wl) bl
      = addf
          (matmul dot_S2000x128_S128x2_S2000x2_1_0_0_1_n_n none (truncf .bf16 (cellBlk (gatesBlk x0 b wt bih) bhh) bitsLt_bf16_f32)
            (truncf .bf16 (shapeCast S128x2 wl shapeCasts_S128x2_S128x2) bitsLt_bf16_f32) (constant S2000x2 .f32 0x00000000#32))
          (broadcastTo S2000x2 (shapeCast S1x2 bl shapeCasts_S2_S1x2) broadcasts_S1x2_S2000x2) := rfl

/-! ## At an index -/

theorem rows_apply (v : FVec Ideal S128 .f32) (y : Fin 2000) (j : Fin 128) : rows (F := Ideal) v (ix2 y j) = v (ix1 j) :=
  RowOps.castRow_broadcast_apply 2000 128 v _ _ y j

/-- The first transform kernel: the row's product with the weight. -/
theorem k0_pay1_apply (x0 : Vec Ideal S2000x165 .f32) (w : Vec Ideal S165x128 .f32) (y : Fin 2000) (j : Fin 128) :
    Gen.k0_pay1 (F := Ideal) x0 w (ix2 y j) = ∑ k : Fin 165, x0 (ix2 y k) * w (ix2 k j) := by
  simp only [Gen.k0_pay1, shapeCast_self]
  exact RowOps.matmul_zero_apply 2000 165 128 none _ _ y j

/-- The second transform kernel. -/
theorem k2_pay1_apply (x0 : Vec Ideal S2000x128 .f32) (w : Vec Ideal S128x128 .f32) (y : Fin 2000) (j : Fin 128) :
    Gen.k2_pay1 (F := Ideal) x0 w (ix2 y j) = ∑ k : Fin 128, x0 (ix2 y k) * w (ix2 k j) := by
  simp only [Gen.k2_pay1, shapeCast_self]
  exact RowOps.matmul_zero_apply 2000 128 128 none _ _ y j

theorem gatesBlk_apply (x0 : Vec Ideal S2000x128 .f32) (b : Vec Ideal S128 .f32) (wt : Vec Ideal S128x384 .f32) (bih : Vec Ideal S384 .f32)
    (y : Fin 2000) (q : Fin 384) :
    gatesBlk (F := Ideal) x0 b wt bih (ix2 y q)
      = Gru.gates (fun k => x0 (ix2 y k)) (fun k => b (ix1 k)) (fun k q => wt (ix2 k q)) (fun q => bih (ix1 q)) q := by
  unfold gatesBlk Gru.gates
  rw [addf_apply, RowOps.castRow_broadcast_apply 2000 384 bih _ _ y q, shapeCast_self]
  refine congrArg (· + bih (ix1 q)) ?_
  refine (RowOps.matmul_zero_apply 2000 128 384 none _ _ y q).trans ?_
  refine Finset.sum_congr rfl fun k _ => ?_
  show hidden x0 b (ix2 y k) * wt (ix2 k q) = _
  unfold hidden
  rw [maximumf_apply, addf_apply, rows_apply, shapeCast_self]
  rfl

theorem cellBlk_apply (gi : FVec Ideal S2000x384 .f32) (bhh : Vec Ideal S384 .f32) (y : Fin 2000) (j : Fin 128) :
    cellBlk (F := Ideal) gi bhh (ix2 y j) = Gru.cell (fun q => gi (ix2 y q)) (fun q => bhh (ix1 q)) j := by
  have hj := j.isLt
  unfold cellBlk Gru.cell
  simp only [mulf_apply, subf_apply, addf_apply, broadcast_apply, RowOps.tanh_apply, RowOps.logistic_apply, rows_apply,
    Gru.logistic_eq_sigm]
  rw [RowOps.sliceCols_apply 2000 384 128 128 gi _ y j (by omega), RowOps.sliceCols_apply 2000 384 128 256 gi _ y j (by omega),
    RowOps.sliceCols_apply 2000 384 128 0 gi _ y j (by omega), RowOps.sliceVec_apply 384 128 128 bhh _ j (by omega),
    RowOps.sliceVec_apply 384 128 256 bhh _ j (by omega), RowOps.sliceVec_apply 384 128 0 bhh _ j (by omega)]
  rfl

/-- The layer kernel's stored value at row `y`, hidden unit `j`. -/
theorem k1_pay1_apply (x0 : Vec Ideal S2000x128 .f32) (b : Vec Ideal S128 .f32) (wt : Vec Ideal S128x384 .f32) (bih bhh : Vec Ideal S384 .f32)
    (y : Fin 2000) (j : Fin 128) :
    Gen.k1_pay1 (F := Ideal) x0 b wt bih bhh (ix2 y j)
      = Gru.cell (Gru.gates (fun k => x0 (ix2 y k)) (fun k => b (ix1 k)) (fun k q => wt (ix2 k q)) (fun q => bih (ix1 q)))
          (fun q => bhh (ix1 q)) j := by
  rw [k1_pay1_eq, cellBlk_apply]
  exact congrArg (fun g => Gru.cell g (fun q => bhh (ix1 q)) j) (funext fun q => gatesBlk_apply x0 b wt bih y q)

/-- The last kernel's stored value at row `y`, output column `q`. -/
theorem k3_pay_apply (x0 : Vec Ideal S2000x128 .f32) (b : Vec Ideal S128 .f32) (wt : Vec Ideal S128x384 .f32) (bih bhh : Vec Ideal S384 .f32)
    (wl : Vec Ideal S128x2 .f32) (bl : Vec Ideal S2 .f32) (y : Fin 2000) (q : Fin 2) :
    Gen.k3_pay1 (F := Ideal) (Gen.k3_pay2 x0 b wt bih bhh wl) bl (ix2 y q)
      = (∑ k : Fin 128, Gru.cell (Gru.gates (fun k => x0 (ix2 y k)) (fun k => b (ix1 k)) (fun k q => wt (ix2 k q)) (fun q => bih (ix1 q)))
            (fun q => bhh (ix1 q)) k * wl (ix2 k q)) + bl (ix1 q) := by
  rw [k3_pay_eq, addf_apply, RowOps.castRow_broadcast_apply 2000 2 bl _ _ y q, shapeCast_self]
  refine congrArg (· + bl (ix1 q)) ?_
  refine (RowOps.matmul_zero_apply 2000 128 2 none _ _ y q).trans ?_
  refine Finset.sum_congr rfl fun k _ => ?_
  show cellBlk (gatesBlk x0 b wt bih) bhh (ix2 y k) * wl (ix2 k q) = _
  rw [← k1_pay1_eq, k1_pay1_apply]

end Cert.KernelIdeal.Body

end
-- ==== Proof.RefStages.lean ====
/-
  The reference's dense stages, each as one function of its operand arrays, and what each holds at an index.

  Between its gather / scatter stretches the reference computes four dense stages over the 100000 nodes: the feature
  transform `x · W0ᵀ`; layer 0's bias, rectifier and gated cell; the transform `h · W1ᵀ`; and layer 1's bias,
  rectifier and gated cell followed by the linear head.  Here each is ONE function of the arrays it reads (the
  transposed weights among them), spelt with the reference's own operations, and read at a node `r` and a
  column: a transform is a sum over the contracted axis of the node's row, and the gated layer is
  `Gru.cell (Gru.gates row …)` of the node's row — a node's output depends on that node's row only.
-/
import proofs.«153861_j44822278701843_1_alg».proof.Proof.Gen.ReferenceIdeal
import proofs.«153861_j44822278701843_1_alg».proof.Proof.LibRowOps
import proofs.«153861_j44822278701843_1_alg».proof.Proof.LibGru

noncomputable section

open scoped BigOperators

namespace Cert.ReferenceIdeal.Stage

open Cert.ReferenceIdeal Cert.ReferenceIdeal.Facts₀ Idealize.ShloMosaic Idealize.ShloMosaic.ValueIdx Cert.Lib

variable {F : FTy → Type} [FloatOps F]

/-! ## The stages -/

/-- A vector of length 128 spread over the rows. -/
def rows128 (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)
/-- A vector of length 384 spread over the rows. -/
def rows384 (b : (⟨S384, .f32⟩ : BufTy).Contents (Elt F)) : (⟨S100000x384, .f32⟩ : BufTy).Contents (Elt F) :=
  broadcastInDim S100000x384 ![0, 1] bcast_S1x384_S100000x384_0_1 (broadcastInDim S1x384 ![1] bcast_S384_S1x384_1 b)
/-- A vector of length 2 spread over the rows. -/
def rows2 (b : (⟨S2, .f32⟩ : BufTy).Contents (Elt F)) : (⟨S100000x2, .f32⟩ : BufTy).Contents (Elt F) :=
  broadcastInDim S100000x2 ![0, 1] bcast_S1x2_S100000x2_0_1 (broadcastInDim S1x2 ![1] bcast_S2_S1x2_1 b)
/-- A scalar constant spread over the nodes' 128 columns. -/
def splat128 (w : BitVec 32) : (⟨S100000x128, .f32⟩ : BufTy).Contents (Elt F) :=
  broadcastInDim S100000x128 ![] bcast_S_S100000x128 (constant S_ .f32 w)

/-- The input feature transform: `x · wt`, `wt` the transposed weight. -/
def transformX (x : (⟨S100000x165, .f32⟩ : BufTy).Contents (Elt F)) (wt : (⟨S165x128, .f32⟩ : BufTy).Contents (Elt F)) : (⟨S100000x128, .f32⟩ : BufTy).Contents (Elt F) :=
  Host.dotGeneral dot_S100000x165_S165x128_S100000x128_1_0_0_1_n_n none x wt
/-- The hidden feature transform: `h · wt`. -/
def transformH (h : (⟨S100000x128, .f32⟩ : BufTy).Contents (Elt F)) (wt : (⟨S128x128, .f32⟩ : BufTy).Contents (Elt F)) : (⟨S100000x128, .f32⟩ : BufTy).Contents (Elt F) :=
  Host.dotGeneral dot_S100000x128_S128x128_S100000x128_1_0_0_1_n_n none h wt

/-- Bias and rectifier. -/
def hidden (agg : (⟨S100000x128, .f32⟩ : BufTy).Contents (Elt F)) (b : (⟨S128, .f32⟩ : BufTy).Contents (Elt F)) : (⟨S100000x128, .f32⟩ : BufTy).Contents (Elt F) :=
  maximumf (addf agg (rows128 b)) (splat128 0x00000000#32)
/-- The gate pre-activations of every node. -/
def gatesArr (agg : (⟨S100000x128, .f32⟩ : BufTy).Contents (Elt F)) (b : (⟨S128, .f32⟩ : BufTy).Contents (Elt F)) (wt : (⟨S128x384, .f32⟩ : BufTy).Contents (Elt F)) (bih : (⟨S384, .f32⟩ : BufTy).Contents (Elt F)) : (⟨S100000x384, .f32⟩ : BufTy).Contents (Elt F) :=
  addf (Host.dotGeneral dot_S100000x128_S128x384_S100000x384_1_0_0_1_n_n none (hidden agg b) wt) (rows384 bih)
/-- The logistic function as the host spells it. -/
def sigArr (x : (⟨S100000x128, .f32⟩ : BufTy).Contents (Elt F)) : (⟨S100000x128, .f32⟩ : BufTy).Contents (Elt F) :=
  Host.divf (splat128 0x3F800000#32) (addf (splat128 0x3F800000#32) (Host.exp (Host.negf x)))
/-- The gated cell at a zero previous state. -/
def cellArr (gi : (⟨S100000x384, .f32⟩ : BufTy).Contents (Elt F)) (bhh : (⟨S384, .f32⟩ : BufTy).Contents (Elt F)) : (⟨S100000x128, .f32⟩ : BufTy).Contents (Elt F) :=
  mulf
    (subf (splat128 0x3F800000#32)
      (sigArr (addf (extractStridedSlice S100000x128 ![0, 128] gi slices_S100000x384_S100000x128_0_128)
        (rows128 (extractStridedSlice S128 ![128] bhh slices_S384_S128_128)))))
    (Host.tanh (addf (extractStridedSlice S100000x128 ![0, 256] gi slices_S100000x384_S100000x128_0_256)
      (mulf
        (sigArr (addf (extractStridedSlice S100000x128 ![0, 0] gi slices_S100000x384_S100000x128_0_0)
          (rows128 (extractStridedSlice S128 ![0] bhh slices_S384_S128_0))))
        (rows128 (extractStridedSlice S128 ![256] bhh slices_S384_S128_256)))))
/-- One layer after aggregation: bias, rectifier, gates, cell. -/
def layer (agg : (⟨S100000x128, .f32⟩ : BufTy).Contents (Elt F)) (b : (⟨S128, .f32⟩ : BufTy).Contents (Elt F)) (wt : (⟨S128x384, .f32⟩ : BufTy).Contents (Elt F)) (bih bhh : (⟨S384, .f32⟩ : BufTy).Contents (Elt F)) : (⟨S100000x128, .f32⟩ : BufTy).Contents (Elt F) :=
  cellArr (gatesArr agg b wt bih) bhh
/-- The linear head. -/
def head (h : (⟨S100000x128, .f32⟩ : BufTy).Contents (Elt F)) (wl : (⟨S128x2, .f32⟩ : BufTy).Contents (Elt F)) (bl : (⟨S2, .f32⟩ : BufTy).Contents (Elt F)) : (⟨S100000x2, .f32⟩ : BufTy).Contents (Elt F) :=
  addf (Host.dotGeneral dot_S100000x128_S128x2_S100000x2_1_0_0_1_n_n none h wl) (rows2 bl)

/-! ## The stages at an index, at the ideal values -/

theorem rows128_apply (b : (⟨S128, .f32⟩ : BufTy).Contents (Elt Ideal)) (r : Fin 100000) (j : Fin 128) : rows128 (F := Ideal) b (ix2 r j) = b (ix1 j) :=
  RowOps.bcastRow_bcast_apply 100000 128 b _ _ r j
theorem rows384_apply (b : (⟨S384, .f32⟩ : BufTy).Contents (Elt Ideal)) (r : Fin 100000) (q : Fin 384) : rows384 (F := Ideal) b (ix2 r q) = b (ix1 q) :=
  RowOps.bcastRow_bcast_apply 100000 384 b _ _ r q
theorem rows2_apply (b : (⟨S2, .f32⟩ : BufTy).Contents (Elt Ideal)) (r : Fin 100000) (q : Fin 2) : rows2 (F := Ideal) b (ix2 r q) = b (ix1 q) :=
  RowOps.bcastRow_bcast_apply 100000 2 b _ _ r q
theorem splat128_apply (w : BitVec 32) (i : S100000x128.Idx) : splat128 (F := Ideal) w i = Ideal.ofBits .f32 w :=
  RowOps.splat_apply (φ := .f32) _ _ w i

theorem transformX_apply (x : (⟨S100000x165, .f32⟩ : BufTy).Contents (Elt Ideal)) (wt : (⟨S165x128, .f32⟩ : BufTy).Contents (Elt Ideal)) (r : Fin 100000) (j : Fin 128) :
    transformX (F := Ideal) x wt (ix2 r j) = ∑ k : Fin 165, x (ix2 r k) * wt (ix2 k j) :=
  RowOps.dotGeneral_apply 100000 165 128 none .single x wt r j
theorem transformH_apply (h : (⟨S100000x128, .f32⟩ : BufTy).Contents (Elt Ideal)) (wt : (⟨S128x128, .f32⟩ : BufTy).Contents (Elt Ideal)) (r : Fin 100000) (j : Fin 128) :
    transformH (F := Ideal) h wt (ix2 r j) = ∑ k : Fin 128, h (ix2 r k) * wt (ix2 k j) :=
  RowOps.dotGeneral_apply 100000 128 128 none .single h wt r j

theorem gatesArr_apply (agg : (⟨S100000x128, .f32⟩ : BufTy).Contents (Elt Ideal)) (b : (⟨S128, .f32⟩ : BufTy).Contents (Elt Ideal)) (wt : (⟨S128x384, .f32⟩ : BufTy).Contents (Elt Ideal)) (bih : (⟨S384, .f32⟩ : BufTy).Contents (Elt Ideal))
    (r : Fin 100000) (q : Fin 384) :
    gatesArr (F := Ideal) agg b wt bih (ix2 r q)
      = Gru.gates (fun k => agg (ix2 r k)) (fun k => b (ix1 k)) (fun k q => wt (ix2 k q)) (fun q => bih (ix1 q)) q := by
  unfold gatesArr Gru.gates
  rw [addf_apply, rows384_apply]
  refine congrArg (· + bih (ix1 q)) ?_
  refine (RowOps.dotGeneral_apply 100000 128 384 none .single (hidden agg b) wt r q).trans ?_
  refine Finset.sum_congr rfl fun k _ => ?_
  unfold hidden
  rw [maximumf_apply, addf_apply, rows128_apply, splat128_apply]

theorem cellArr_apply (gi : (⟨S100000x384, .f32⟩ : BufTy).Contents (Elt Ideal)) (bhh : (⟨S384, .f32⟩ : BufTy).Contents (Elt Ideal)) (r : Fin 100000) (j : Fin 128) :
    cellArr (F := Ideal) gi bhh (ix2 r j) = Gru.cell (fun q => gi (ix2 r q)) (fun q => bhh (ix1 q)) j := by
  have hj := j.isLt
  unfold cellArr Gru.cell sigArr Gru.sigm
  simp only [mulf_apply, subf_apply, addf_apply, RowOps.hostDivf_apply, RowOps.hostExp_apply, RowOps.hostNegf_apply,
    RowOps.hostTanh_apply, splat128_apply, rows128_apply]
  rw [RowOps.sliceCols_apply 100000 384 128 128 gi _ r j (by omega), RowOps.sliceCols_apply 100000 384 128 256 gi _ r j (by omega),
    RowOps.sliceCols_apply 100000 384 128 0 gi _ r j (by omega), RowOps.sliceVec_apply 384 128 128 bhh _ j (by omega),
    RowOps.sliceVec_apply 384 128 256 bhh _ j (by omega), RowOps.sliceVec_apply 384 128 0 bhh _ j (by omega)]

theorem layer_apply (agg : (⟨S100000x128, .f32⟩ : BufTy).Contents (Elt Ideal)) (b : (⟨S128, .f32⟩ : BufTy).Contents (Elt Ideal)) (wt : (⟨S128x384, .f32⟩ : BufTy).Contents (Elt Ideal)) (bih bhh : (⟨S384, .f32⟩ : BufTy).Contents (Elt Ideal))
    (r : Fin 100000) (j : Fin 128) :
    layer (F := Ideal) agg b wt bih bhh (ix2 r j)
      = Gru.cell (Gru.gates (fun k => agg (ix2 r k)) (fun k => b (ix1 k)) (fun k q => wt (ix2 k q)) (fun q => bih (ix1 q)))
          (fun q => bhh (ix1 q)) j := by
  unfold layer
  rw [cellArr_apply]
  exact congrArg (fun g => Gru.cell g (fun q => bhh (ix1 q)) j) (funext fun q => gatesArr_apply agg b wt bih r q)

theorem head_apply (h : (⟨S100000x128, .f32⟩ : BufTy).Contents (Elt Ideal)) (wl : (⟨S128x2, .f32⟩ : BufTy).Contents (Elt Ideal)) (bl : (⟨S2, .f32⟩ : BufTy).Contents (Elt Ideal)) (r : Fin 100000) (q : Fin 2) :
    head (F := Ideal) h wl bl (ix2 r q) = (∑ k : Fin 128, h (ix2 r k) * wl (ix2 k q)) + bl (ix1 q) := by
  unfold head
  rw [addf_apply, rows2_apply]
  exact congrArg (· + bl (ix1 q)) (RowOps.dotGeneral_apply 100000 128 2 none .single h wl r q)

end Cert.ReferenceIdeal.Stage

end
-- ==== Proof.RegionValues.lean ====
/-
  What each kernel region leaves in its output array, as one function of the arrays it reads.

  Every region runs its body at fifty grid points.  At point `t` the body sees rows `2000·t … 2000·t + 1999` of
  its first operand and all of every other operand, and its output block is written back to the same rows of
  the output array; the fifty blocks tile the array.  Row `y` of a block depends only on row `y` of the first
  operand's block — a sum over that row, or the gated cell of that row — and the reference's stage at node
  `2000·t + y` is the same function of the same row.  So the block written back at `t` is block `t` of the
  reference's stage applied to the region's arrays, and the whole output array ends as that stage: the feature
  transform, the layer, the hidden transform, and the layer followed by the head.
  The arrays are read off the buffer contents `V` at the region's entry, whatever those are.
-/
import proofs.«153861_j44822278701843_1_alg».proof.Proof.Gen.KernelIdeal.Frame
import proofs.«153861_j44822278701843_1_alg».proof.Proof.KernelBodies
import proofs.«153861_j44822278701843_1_alg».proof.Proof.RefStages

set_option maxRecDepth 16384

noncomputable section

open scoped BigOperators

namespace Cert.KernelIdeal.Region

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)
open Cert.Lib

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- Row `2000·t + y` is a node. -/
theorem row_lt {t y : Nat} (ht : t < 50) (hy : y < 2000) : t * 2000 + y < 100000 := by omega

/-! ## Region 0: the feature transform -/

/-- The index maps over the grid: the row blocks move with the point, the weight stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `y` of the first operand's block at `t` is row `2000·t + y` of the array. -/
theorem rowblk0 (c : Dev nD) (t : Fin cfg0.N) (y : Fin 2000) (k : Fin 165) (h : t.val * 2000 + y.val < 100000) :
    iblk0 V c 0 t (ix2 y k) = V c main_arg0 (ix2 ⟨t.val * 2000 + y.val, h⟩ k) := by
  obtain ⟨e0, e1, -⟩ := idx0 t
  show V c main_arg0 (((cfg0.win 0).blk t).view.emb (ix2 y k)) = _
  refine congrArg (V c main_arg0) (funext fun a => Fin.ext ?_)
  match a with
  | ⟨0, _⟩ => show win0_0.index t (0 : Fin 2) * 2000 + 1 * y.val = t.val * 2000 + y.val; omega
  | ⟨1, _⟩ => show win0_0.index t (1 : Fin 2) * 165 + 1 * k.val = k.val; omega

/-- The weight's block at any point is the whole weight. -/
theorem wblk0 (c : Dev nD) (t : Fin cfg0.N) (k : Fin 165) (j : Fin 128) : iblk0 V c 1 t (ix2 k j) = V c main_v33 (ix2 k j) := by
  obtain ⟨-, -, e2, e3, -⟩ := idx0 t
  show V c main_v33 (((cfg0.win 1).blk t).view.emb (ix2 k j)) = _
  refine congrArg (V c main_v33) (funext fun a => Fin.ext ?_)
  match a with
  | ⟨0, _⟩ => show win0_1.index t (0 : Fin 2) * 165 + 1 * k.val = k.val; omega
  | ⟨1, _⟩ => show win0_1.index t (1 : Fin 2) * 128 + 1 * j.val = j.val; omega

/-- What point `t` writes back is block `t` of the transform of the region's arrays. -/
theorem flushed0 (c : Dev nD) (t : Fin cfg0.N) :
    (dat0 V c).flushed 2 t
      = ((cfg0.win 2).blk t).view.read (Elt Ideal) (ReferenceIdeal.Stage.transformX (V c main_arg0) (V c main_v33)) := by
  show (cfg0.win 2).cut (grid0.coords t) ((dat0 V c).after 2 t) = _
  rw [after0_2]
  unfold out0_2
  rw [View.canon_unit_zero off2]
  simp only [View.ld_unit_zero (S := S2000x165) off2, View.ld_unit_zero (S := S165x128) off2]
  obtain ⟨-, -, -, -, e4, e5⟩ := idx0 t
  have ht : t.val < 50 := lt_of_lt_of_eq t.isLt N_0
  funext y
  obtain ⟨p, q, rfl⟩ : ∃ (p : Fin 2000) (q : Fin 128), y = ix2 p q := ⟨y 0, y 1, eq_ix2 y⟩
  have hemb : ((cfg0.win 2).blk t).view.emb (ix2 p q) = ix2 ⟨t.val * 2000 + p.val, row_lt ht p.isLt⟩ q :=
    funext fun a => Fin.ext (by
      match a with
      | ⟨0, _⟩ => show win0_2.index t (0 : Fin 2) * 2000 + 1 * p.val = t.val * 2000 + p.val; omega
      | ⟨1, _⟩ => show win0_2.index t (1 : Fin 2) * 128 + 1 * q.val = q.val; omega)
  show k0_pay1 (iblk0 V c 0 t) (iblk0 V c 1 t) (ix2 p q)
    = ReferenceIdeal.Stage.transformX (V c main_arg0) (V c main_v33) (((cfg0.win 2).blk t).view.emb (ix2 p q))
  rw [hemb, ReferenceIdeal.Stage.transformX_apply]
  refine (Body.k0_pay1_apply _ _ p q).trans (Finset.sum_congr rfl fun k _ => ?_)
  rw [rowblk0 V c t p k (row_lt ht p.isLt), wblk0 V c t k q]

/-- An index of the output array is in point `t`'s block iff each coordinate is in the block's range. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v34).slice (win0_2.rect t)).set ↔ _
  rw [View.set_slice_whole, Rect.mem_set_unit]
  exact Iff.rfl

/-- The fifty blocks cover the output array: node `r` is in the block of point `r / 2000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e4, e5⟩ := idx0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After region 0 its output array holds the feature transform of the region's arrays. -/
theorem final0 (c : Dev nD) :
    (dat0 V c).arrAt 2 cfg0.N = ReferenceIdeal.Stage.transformX (V c main_arg0) (V c main_v33) :=
  (dat0 V c).arrAt_eq_of_cover 2 _ (fun t _ => flushed0 V c t) cover0

/-! ## Region 1: layer 0 -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 1) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 1) = 0 :=
  (by decide +kernel : ∀ t : Fin grid1.N, _)
theorem idx1_4 : ∀ t : Fin cfg1.N, win1_4.index t (0 : Fin 1) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)

/-- Row `y` of the first operand's block at `t` is row `2000·t + y` of the array. -/
theorem blk1_0 (c : Dev nD) (t : Fin cfg1.N) (y : Fin 2000) (k : Fin 128) (h : t.val * 2000 + y.val < 100000) :
    iblk1 V c 0 t (ix2 y k) = V c main_v46 (ix2 ⟨t.val * 2000 + y.val, h⟩ k) := by
  obtain ⟨e0, e1⟩ := idx1_0 t
  show V c main_v46 (((cfg1.win 0).blk t).view.emb (ix2 y k)) = _
  refine congrArg (V c main_v46) (funext fun a => Fin.ext ?_)
  match a with
  | ⟨0, _⟩ => show win1_0.index t (0 : Fin 2) * 2000 + 1 * y.val = t.val * 2000 + y.val; omega
  | ⟨1, _⟩ => show win1_0.index t (1 : Fin 2) * 128 + 1 * k.val = k.val; omega

/-- This operand's block at any point is the whole vector. -/
theorem blk1_1 (c : Dev nD) (t : Fin cfg1.N) (a : Fin 128) :
    iblk1 V c 1 t (ix1 a) = V c main_arg3 (ix1 a) := by
  have e0 := idx1_1 t
  show V c main_arg3 (((cfg1.win 1).blk t).view.emb (ix1 a)) = _
  refine congrArg (V c main_arg3) (funext fun d => Fin.ext ?_)
  match d with
  | ⟨0, _⟩ => show win1_1.index t (0 : Fin 1) * 128 + 1 * a.val = a.val; omega

/-- This operand's block at any point is the whole array. -/
theorem blk1_2 (c : Dev nD) (t : Fin cfg1.N) (a : Fin 128) (b : Fin 384) :
    iblk1 V c 2 t (ix2 a b) = V c main_v47 (ix2 a b) := by
  obtain ⟨e0, e1⟩ := idx1_2 t
  show V c main_v47 (((cfg1.win 2).blk t).view.emb (ix2 a b)) = _
  refine congrArg (V c main_v47) (funext fun d => Fin.ext ?_)
  match d with
  | ⟨0, _⟩ => show win1_2.index t (0 : Fin 2) * 128 + 1 * a.val = a.val; omega
  | ⟨1, _⟩ => show win1_2.index t (1 : Fin 2) * 384 + 1 * b.val = b.val; omega

/-- This operand's block at any point is the whole vector. -/
theorem blk1_3 (c : Dev nD) (t : Fin cfg1.N) (a : Fin 384) :
    iblk1 V c 3 t (ix1 a) = V c main_arg6 (ix1 a) := by
  have e0 := idx1_3 t
  show V c main_arg6 (((cfg1.win 3).blk t).view.emb (ix1 a)) = _
  refine congrArg (V c main_arg6) (funext fun d => Fin.ext ?_)
  match d with
  | ⟨0, _⟩ => show win1_3.index t (0 : Fin 1) * 384 + 1 * a.val = a.val; omega

/-- This operand's block at any point is the whole vector. -/
theorem blk1_4 (c : Dev nD) (t : Fin cfg1.N) (a : Fin 384) :
    iblk1 V c 4 t (ix1 a) = V c main_arg7 (ix1 a) := by
  have e0 := idx1_4 t
  show V c main_arg7 (((cfg1.win 4).blk t).view.emb (ix1 a)) = _
  refine congrArg (V c main_arg7) (funext fun d => Fin.ext ?_)
  match d with
  | ⟨0, _⟩ => show win1_4.index t (0 : Fin 1) * 384 + 1 * a.val = a.val; omega

/-- What point `t` writes back is block `t` of the stage applied to the region's arrays. -/
theorem flushed1 (c : Dev nD) (t : Fin cfg1.N) :
    (dat1 V c).flushed 5 t = ((cfg1.win 5).blk t).view.read (Elt Ideal) (ReferenceIdeal.Stage.layer (V c main_v46) (V c main_arg3) (V c main_v47) (V c main_arg6) (V c main_arg7)) := by
  show (cfg1.win 5).cut (grid1.coords t) ((dat1 V c).after 5 t) = _
  rw [after1_5]
  unfold out1_5
  rw [View.canon_unit_zero off2]
  simp only [View.ld_unit_zero (S := S2000x128) off2, View.ld_unit_zero (S := S128) off1, View.ld_unit_zero (S := S128x384) off2, View.ld_unit_zero (S := S384) off1]
  obtain ⟨e4, e5⟩ := idx1_5 t
  have ht : t.val < 50 := lt_of_lt_of_eq t.isLt N_1
  funext y
  obtain ⟨p, q, rfl⟩ : ∃ (p : Fin 2000) (q : Fin 128), y = ix2 p q := ⟨y 0, y 1, eq_ix2 y⟩
  have hemb : ((cfg1.win 5).blk t).view.emb (ix2 p q) = ix2 ⟨t.val * 2000 + p.val, row_lt ht p.isLt⟩ q :=
    funext fun a => Fin.ext (by
      match a with
      | ⟨0, _⟩ => show win1_5.index t (0 : Fin 2) * 2000 + 1 * p.val = t.val * 2000 + p.val; omega
      | ⟨1, _⟩ => show win1_5.index t (1 : Fin 2) * 128 + 1 * q.val = q.val; omega)
  show k1_pay1 (iblk1 V c 0 t) (iblk1 V c 1 t) (iblk1 V c 2 t) (iblk1 V c 3 t) (iblk1 V c 4 t) (ix2 p q)
    = (ReferenceIdeal.Stage.layer (V c main_v46) (V c main_arg3) (V c main_v47) (V c main_arg6) (V c main_arg7)) (((cfg1.win 5).blk t).view.emb (ix2 p q))
  rw [hemb]
  rw [ReferenceIdeal.Stage.layer_apply]
  refine (Body.k1_pay1_apply _ _ _ _ _ p q).trans ?_
  rw [show (fun k => iblk1 V c 0 t (ix2 p k)) = (fun k => V c main_v46 (ix2 ⟨t.val * 2000 + p.val, row_lt ht p.isLt⟩ k)) from
        funext fun k => blk1_0 V c t p k (row_lt ht p.isLt),
      show (fun k => iblk1 V c 1 t (ix1 k)) = (fun k => V c main_arg3 (ix1 k)) from funext fun k => blk1_1 V c t k,
      show (fun k q => iblk1 V c 2 t (ix2 k q)) = (fun k q => V c main_v47 (ix2 k q)) from funext fun k => funext fun q => blk1_2 V c t k q,
      show (fun q => iblk1 V c 3 t (ix1 q)) = (fun q => V c main_arg6 (ix1 q)) from funext fun q => blk1_3 V c t q,
      show (fun q => iblk1 V c 4 t (ix1 q)) = (fun q => V c main_arg7 (ix1 q)) from funext fun q => blk1_4 V c t q]

/-- An index of the output array is in point `t`'s block iff each coordinate is in the block's range. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v48).slice (win1_5.rect t)).set ↔ _
  rw [View.set_slice_whole, Rect.mem_set_unit]
  exact Iff.rfl

/-- The fifty blocks cover the output array. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨e4, e5⟩ := idx1_5 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- After region 1 its output array holds the stage applied to the region's arrays. -/
theorem final1 (c : Dev nD) : (dat1 V c).arrAt 5 cfg1.N = ReferenceIdeal.Stage.layer (V c main_v46) (V c main_arg3) (V c main_v47) (V c main_arg6) (V c main_arg7) :=
  (dat1 V c).arrAt_eq_of_cover 5 _ (fun t _ => flushed1 V c t) cover1

/-! ## Region 2: the hidden transform -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)

/-- Row `y` of the first operand's block at `t` is row `2000·t + y` of the array. -/
theorem blk2_0 (c : Dev nD) (t : Fin cfg2.N) (y : Fin 2000) (k : Fin 128) (h : t.val * 2000 + y.val < 100000) :
    iblk2 V c 0 t (ix2 y k) = V c main_v48 (ix2 ⟨t.val * 2000 + y.val, h⟩ k) := by
  obtain ⟨e0, e1⟩ := idx2_0 t
  show V c main_v48 (((cfg2.win 0).blk t).view.emb (ix2 y k)) = _
  refine congrArg (V c main_v48) (funext fun a => Fin.ext ?_)
  match a with
  | ⟨0, _⟩ => show win2_0.index t (0 : Fin 2) * 2000 + 1 * y.val = t.val * 2000 + y.val; omega
  | ⟨1, _⟩ => show win2_0.index t (1 : Fin 2) * 128 + 1 * k.val = k.val; omega

/-- This operand's block at any point is the whole array. -/
theorem blk2_1 (c : Dev nD) (t : Fin cfg2.N) (a : Fin 128) (b : Fin 128) :
    iblk2 V c 1 t (ix2 a b) = V c main_v49 (ix2 a b) := by
  obtain ⟨e0, e1⟩ := idx2_1 t
  show V c main_v49 (((cfg2.win 1).blk t).view.emb (ix2 a b)) = _
  refine congrArg (V c main_v49) (funext fun d => Fin.ext ?_)
  match d with
  | ⟨0, _⟩ => show win2_1.index t (0 : Fin 2) * 128 + 1 * a.val = a.val; omega
  | ⟨1, _⟩ => show win2_1.index t (1 : Fin 2) * 128 + 1 * b.val = b.val; omega

/-- What point `t` writes back is block `t` of the stage applied to the region's arrays. -/
theorem flushed2 (c : Dev nD) (t : Fin cfg2.N) :
    (dat2 V c).flushed 2 t = ((cfg2.win 2).blk t).view.read (Elt Ideal) (ReferenceIdeal.Stage.transformH (V c main_v48) (V c main_v49)) := by
  show (cfg2.win 2).cut (grid2.coords t) ((dat2 V c).after 2 t) = _
  rw [after2_2]
  unfold out2_2
  rw [View.canon_unit_zero off2]
  simp only [View.ld_unit_zero (S := S2000x128) off2, View.ld_unit_zero (S := S128x128) off2]
  obtain ⟨e4, e5⟩ := idx2_2 t
  have ht : t.val < 50 := lt_of_lt_of_eq t.isLt N_2
  funext y
  obtain ⟨p, q, rfl⟩ : ∃ (p : Fin 2000) (q : Fin 128), y = ix2 p q := ⟨y 0, y 1, eq_ix2 y⟩
  have hemb : ((cfg2.win 2).blk t).view.emb (ix2 p q) = ix2 ⟨t.val * 2000 + p.val, row_lt ht p.isLt⟩ q :=
    funext fun a => Fin.ext (by
      match a with
      | ⟨0, _⟩ => show win2_2.index t (0 : Fin 2) * 2000 + 1 * p.val = t.val * 2000 + p.val; omega
      | ⟨1, _⟩ => show win2_2.index t (1 : Fin 2) * 128 + 1 * q.val = q.val; omega)
  show k2_pay1 (iblk2 V c 0 t) (iblk2 V c 1 t) (ix2 p q)
    = (ReferenceIdeal.Stage.transformH (V c main_v48) (V c main_v49)) (((cfg2.win 2).blk t).view.emb (ix2 p q))
  rw [hemb]
  rw [ReferenceIdeal.Stage.transformH_apply]
  refine (Body.k2_pay1_apply _ _ p q).trans (Finset.sum_congr rfl fun k _ => ?_)
  rw [blk2_0 V c t p k (row_lt ht p.isLt), blk2_1 V c t k q]

/-- An index of the output array is in point `t`'s block iff each coordinate is in the block's range. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v50).slice (win2_2.rect t)).set ↔ _
  rw [View.set_slice_whole, Rect.mem_set_unit]
  exact Iff.rfl

/-- The fifty blocks cover the output array. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨e4, e5⟩ := idx2_2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After region 2 its output array holds the stage applied to the region's arrays. -/
theorem final2 (c : Dev nD) : (dat2 V c).arrAt 2 cfg2.N = ReferenceIdeal.Stage.transformH (V c main_v48) (V c main_v49) :=
  (dat2 V c).arrAt_eq_of_cover 2 _ (fun t _ => flushed2 V c t) cover2

/-! ## Region 3: layer 1 and the head -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 1) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 1) = 0 :=
  (by decide +kernel : ∀ t : Fin grid3.N, _)
theorem idx3_4 : ∀ t : Fin cfg3.N, win3_4.index t (0 : Fin 1) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 1) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)

/-- Row `y` of the first operand's block at `t` is row `2000·t + y` of the array. -/
theorem blk3_0 (c : Dev nD) (t : Fin cfg3.N) (y : Fin 2000) (k : Fin 128) (h : t.val * 2000 + y.val < 100000) :
    iblk3 V c 0 t (ix2 y k) = V c main_v62 (ix2 ⟨t.val * 2000 + y.val, h⟩ k) := by
  obtain ⟨e0, e1⟩ := idx3_0 t
  show V c main_v62 (((cfg3.win 0).blk t).view.emb (ix2 y k)) = _
  refine congrArg (V c main_v62) (funext fun a => Fin.ext ?_)
  match a with
  | ⟨0, _⟩ => show win3_0.index t (0 : Fin 2) * 2000 + 1 * y.val = t.val * 2000 + y.val; omega
  | ⟨1, _⟩ => show win3_0.index t (1 : Fin 2) * 128 + 1 * k.val = k.val; omega

/-- This operand's block at any point is the whole vector. -/
theorem blk3_1 (c : Dev nD) (t : Fin cfg3.N) (a : Fin 128) :
    iblk3 V c 1 t (ix1 a) = V c main_arg9 (ix1 a) := by
  have e0 := idx3_1 t
  show V c main_arg9 (((cfg3.win 1).blk t).view.emb (ix1 a)) = _
  refine congrArg (V c main_arg9) (funext fun d => Fin.ext ?_)
  match d with
  | ⟨0, _⟩ => show win3_1.index t (0 : Fin 1) * 128 + 1 * a.val = a.val; omega

/-- This operand's block at any point is the whole array. -/
theorem blk3_2 (c : Dev nD) (t : Fin cfg3.N) (a : Fin 128) (b : Fin 384) :
    iblk3 V c 2 t (ix2 a b) = V c main_v63 (ix2 a b) := by
  obtain ⟨e0, e1⟩ := idx3_2 t
  show V c main_v63 (((cfg3.win 2).blk t).view.emb (ix2 a b)) = _
  refine congrArg (V c main_v63) (funext fun d => Fin.ext ?_)
  match d with
  | ⟨0, _⟩ => show win3_2.index t (0 : Fin 2) * 128 + 1 * a.val = a.val; omega
  | ⟨1, _⟩ => show win3_2.index t (1 : Fin 2) * 384 + 1 * b.val = b.val; omega

/-- This operand's block at any point is the whole vector. -/
theorem blk3_3 (c : Dev nD) (t : Fin cfg3.N) (a : Fin 384) :
    iblk3 V c 3 t (ix1 a) = V c main_arg12 (ix1 a) := by
  have e0 := idx3_3 t
  show V c main_arg12 (((cfg3.win 3).blk t).view.emb (ix1 a)) = _
  refine congrArg (V c main_arg12) (funext fun d => Fin.ext ?_)
  match d with
  | ⟨0, _⟩ => show win3_3.index t (0 : Fin 1) * 384 + 1 * a.val = a.val; omega

/-- This operand's block at any point is the whole vector. -/
theorem blk3_4 (c : Dev nD) (t : Fin cfg3.N) (a : Fin 384) :
    iblk3 V c 4 t (ix1 a) = V c main_arg13 (ix1 a) := by
  have e0 := idx3_4 t
  show V c main_arg13 (((cfg3.win 4).blk t).view.emb (ix1 a)) = _
  refine congrArg (V c main_arg13) (funext fun d => Fin.ext ?_)
  match d with
  | ⟨0, _⟩ => show win3_4.index t (0 : Fin 1) * 384 + 1 * a.val = a.val; omega

/-- This operand's block at any point is the whole array. -/
theorem blk3_5 (c : Dev nD) (t : Fin cfg3.N) (a : Fin 128) (b : Fin 2) :
    iblk3 V c 5 t (ix2 a b) = V c main_v64 (ix2 a b) := by
  obtain ⟨e0, e1⟩ := idx3_5 t
  show V c main_v64 (((cfg3.win 5).blk t).view.emb (ix2 a b)) = _
  refine congrArg (V c main_v64) (funext fun d => Fin.ext ?_)
  match d with
  | ⟨0, _⟩ => show win3_5.index t (0 : Fin 2) * 128 + 1 * a.val = a.val; omega
  | ⟨1, _⟩ => show win3_5.index t (1 : Fin 2) * 2 + 1 * b.val = b.val; omega

/-- This operand's block at any point is the whole vector. -/
theorem blk3_6 (c : Dev nD) (t : Fin cfg3.N) (a : Fin 2) :
    iblk3 V c 6 t (ix1 a) = V c main_arg15 (ix1 a) := by
  have e0 := idx3_6 t
  show V c main_arg15 (((cfg3.win 6).blk t).view.emb (ix1 a)) = _
  refine congrArg (V c main_arg15) (funext fun d => Fin.ext ?_)
  match d with
  | ⟨0, _⟩ => show win3_6.index t (0 : Fin 1) * 2 + 1 * a.val = a.val; omega

/-- What point `t` writes back is block `t` of the stage applied to the region's arrays. -/
theorem flushed3 (c : Dev nD) (t : Fin cfg3.N) :
    (dat3 V c).flushed 7 t = ((cfg3.win 7).blk t).view.read (Elt Ideal) (ReferenceIdeal.Stage.head (ReferenceIdeal.Stage.layer (V c main_v62) (V c main_arg9) (V c main_v63) (V c main_arg12) (V c main_arg13)) (V c main_v64) (V c main_arg15)) := by
  show (cfg3.win 7).cut (grid3.coords t) ((dat3 V c).after 7 t) = _
  rw [after3_7]
  unfold out3_7
  rw [View.canon_unit_zero off2]
  simp only [View.ld_unit_zero (S := S2000x128) off2, View.ld_unit_zero (S := S128) off1, View.ld_unit_zero (S := S128x384) off2, View.ld_unit_zero (S := S384) off1, View.ld_unit_zero (S := S128x2) off2, View.ld_unit_zero (S := S2) off1]
  obtain ⟨e4, e5⟩ := idx3_7 t
  have ht : t.val < 50 := lt_of_lt_of_eq t.isLt N_3
  funext y
  obtain ⟨p, q, rfl⟩ : ∃ (p : Fin 2000) (q : Fin 2), y = ix2 p q := ⟨y 0, y 1, eq_ix2 y⟩
  have hemb : ((cfg3.win 7).blk t).view.emb (ix2 p q) = ix2 ⟨t.val * 2000 + p.val, row_lt ht p.isLt⟩ q :=
    funext fun a => Fin.ext (by
      match a with
      | ⟨0, _⟩ => show win3_7.index t (0 : Fin 2) * 2000 + 1 * p.val = t.val * 2000 + p.val; omega
      | ⟨1, _⟩ => show win3_7.index t (1 : Fin 2) * 2 + 1 * q.val = q.val; omega)
  show k3_pay1 (k3_pay2 (iblk3 V c 0 t) (iblk3 V c 1 t) (iblk3 V c 2 t) (iblk3 V c 3 t) (iblk3 V c 4 t) (iblk3 V c 5 t)) (iblk3 V c 6 t) (ix2 p q)
    = (ReferenceIdeal.Stage.head (ReferenceIdeal.Stage.layer (V c main_v62) (V c main_arg9) (V c main_v63) (V c main_arg12) (V c main_arg13)) (V c main_v64) (V c main_arg15)) (((cfg3.win 7).blk t).view.emb (ix2 p q))
  rw [hemb]
  rw [ReferenceIdeal.Stage.head_apply]
  refine (Body.k3_pay_apply _ _ _ _ _ _ _ p q).trans ?_
  rw [show (fun k => iblk3 V c 0 t (ix2 p k)) = (fun k => V c main_v62 (ix2 ⟨t.val * 2000 + p.val, row_lt ht p.isLt⟩ k)) from
        funext fun k => blk3_0 V c t p k (row_lt ht p.isLt),
      show (fun k => iblk3 V c 1 t (ix1 k)) = (fun k => V c main_arg9 (ix1 k)) from funext fun k => blk3_1 V c t k,
      show (fun k q => iblk3 V c 2 t (ix2 k q)) = (fun k q => V c main_v63 (ix2 k q)) from funext fun k => funext fun q => blk3_2 V c t k q,
      show (fun q => iblk3 V c 3 t (ix1 q)) = (fun q => V c main_arg12 (ix1 q)) from funext fun q => blk3_3 V c t q,
      show (fun q => iblk3 V c 4 t (ix1 q)) = (fun q => V c main_arg13 (ix1 q)) from funext fun q => blk3_4 V c t q,
      blk3_6 V c t q]
  refine congrArg (· + V c main_arg15 (ix1 q)) (Finset.sum_congr rfl fun k _ => ?_)
  rw [blk3_5 V c t k q, ReferenceIdeal.Stage.layer_apply]

/-- An index of the output array is in point `t`'s block iff each coordinate is in the block's range. -/
theorem mem_blk3 (t : Fin cfg3.N) (i : S100000x2.Idx) :
    i ∈ ((cfg3.win 7).blk t).view.set ↔ ∀ a : Fin 2, win3_7.index t a * S2000x2.size a ≤ (i a).val ∧ (i a).val < win3_7.index t a * S2000x2.size a + S2000x2.size a := by
  show i ∈ ((View.whole main_v65).slice (win3_7.rect t)).set ↔ _
  rw [View.set_slice_whole, Rect.mem_set_unit]
  exact Iff.rfl

/-- The fifty blocks cover the output array. -/
theorem cover3 (i : S100000x2.Idx) : ∃ t : Fin cfg3.N, (cfg3.win 7).flush t = true ∧ i ∈ ((cfg3.win 7).blk t).view.set := by
  have hi0 : (i 0).val < 100000 := (i 0).isLt
  have hi1 : (i 1).val < 2 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨e4, e5⟩ := idx3_7 t
  refine ⟨t, flush3_7 t, ?_⟩
  rw [mem_blk3]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 2 ≤ (i 1).val ∧ (i 1).val < win3_7.index t (1 : Fin 2) * 2 + 2; omega

/-- After region 3 its output array holds the stage applied to the region's arrays. -/
theorem final3 (c : Dev nD) : (dat3 V c).arrAt 7 cfg3.N = ReferenceIdeal.Stage.head (ReferenceIdeal.Stage.layer (V c main_v62) (V c main_arg9) (V c main_v63) (V c main_arg12) (V c main_arg13)) (V c main_v64) (V c main_arg15) :=
  (dat3 V c).arrAt_eq_of_cover 7 _ (fun t _ => flushed3 V c t) cover3

end Cert.KernelIdeal.Region

end
-- ==== Proof.RefRun.lean ====
/-
  The idealized reference's run.

  The reference is a straight line of host operations (its two outlined functions, the selection that guards the
  inverse square root of a zero degree and the rectifier, stand in their calls' places).  Listed in order they are
  `ops`; @main is that list run in sequence, and every weakly fair execution ends with each buffer holding the
  fold of the operations' results over the launch contents, `held m d b` below.  Every buffer is written by one
  operation only, so the fold at a buffer is the value the program computes for it.
-/
import proofs.«153861_j44822278701843_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.sqrt : (⟨S100000, .f32⟩ : BufTy).Contents (Elt F) → (⟨S100000, .f32⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v14 main_v13 main_v15 (Host.divf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    unary main_v31 main_v32 (broadcastInDim S1700000x1 ![0] bcast_S1700000_S1700000x1_0 : (⟨S1700000, .f32⟩ : BufTy).Contents (Elt F) → (⟨S1700000x1, .f32⟩ : BufTy).Contents (Elt F)),
    unary main_arg2 main_v33 ((transpose S165x128 [1, 0] · transposes_S128x165_S165x128_1_0) : (⟨S128x165, .f32⟩ : BufTy).Contents (Elt F) → (⟨S165x128, .f32⟩ : BufTy).Contents (Elt F)),
    binary main_arg0 main_v33 main_v34 ((fun l r => Host.dotGeneral dot_S100000x165_S165x128_S100000x128_1_0_0_1_n_n none l r) : (⟨S100000x165, .f32⟩ : BufTy).Contents (Elt F) → (⟨S165x128, .f32⟩ : BufTy).Contents (Elt F) → (⟨S100000x128, .f32⟩ : BufTy).Contents (Elt F)),
    nullary main_c_7 (constantI S_ 32 0#32),
    unary main_c_7 main_v35 (broadcastInDim S1700000 ![] bcast_S_S1700000 : (⟨S_, .i32⟩ : BufTy).Contents (Elt F) → (⟨S1700000, .i32⟩ : BufTy).Contents (Elt F)),
    binary main_v3 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v37 (broadcastInDim S1700000 ![] bcast_S_S1700000 : (⟨S_, .i32⟩ : BufTy).Contents (Elt F) → (⟨S1700000, .i32⟩ : BufTy).Contents (Elt F)),
    binary main_v3 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v34 main_v40 main_v41 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v42 (broadcastInDim S1700000x128 ![0, 1] bcast_S1700000x1_S1700000x128_0_1 : (⟨S1700000x1, .f32⟩ : BufTy).Contents (Elt F) → (⟨S1700000x128, .f32⟩ : BufTy).Contents (Elt F)),
    binary main_v41 main_v42 main_v43 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v44 (broadcastInDim S100000x128 ![] bcast_S_S100000x128 : (⟨S_, .f32⟩ : BufTy).Contents (Elt F) → (⟨S100000x128, .f32⟩ : BufTy).Contents (Elt F)),
    unary main_v6 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v49) (TRef.of (T := ⟨S100000x128, .f32⟩) main_call1_v0) (TRef.of (T := ⟨S100000x128, .f32⟩) main_v50) maximumf,
    unary main_arg4 main_v51 ((transpose S128x384 [1, 0] · transposes_S384x128_S128x384_1_0) : (⟨S384x128, .f32⟩ : BufTy).Contents (Elt F) → (⟨S128x384, .f32⟩ : BufTy).Contents (Elt F)),
    binary main_v50 main_v51 main_v52 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg6 main_v53 (broadcastInDim S1x384 ![1] bcast_S384_S1x384_1 : (⟨S384, .f32⟩ : BufTy).Contents (Elt F) → (⟨S1x384, .f32⟩ : BufTy).Contents (Elt F)),
    unary main_v53 main_v54 (broadcastInDim S100000x384 ![0, 1] bcast_S1x384_S100000x384_0_1 : (⟨S1x384, .f32⟩ : BufTy).Contents (Elt F) → (⟨S100000x384, .f32⟩ : BufTy).Contents (Elt F)),
    binary main_v52 main_v54 main_v55 (addf : (⟨S100000x384, .f32⟩ : BufTy).Contents (Elt F) → (⟨S100000x384, .f32⟩ : BufTy).Contents (Elt F) → (⟨S100000x384, .f32⟩ : BufTy).Contents (Elt F)),
    unary main_v55 main_v56 ((extractStridedSlice S100000x128 ![0, 0] · slices_S100000x384_S100000x128_0_0) : (⟨S100000x384, .f32⟩ : BufTy).Contents (Elt F) → (⟨S100000x128, .f32⟩ : BufTy).Contents (Elt F)),
    unary main_v55 main_v57 ((extractStridedSlice S100000x128 ![0, 128] · slices_S100000x384_S100000x128_0_128) : (⟨S100000x384, .f32⟩ : BufTy).Contents (Elt F) → (⟨S100000x128, .f32⟩ : BufTy).Contents (Elt F)),
    unary main_v55 main_v58 ((extractStridedSlice S100000x128 ![0, 256] · slices_S100000x384_S100000x128_0_256) : (⟨S100000x384, .f32⟩ : BufTy).Contents (Elt F) → (⟨S100000x128, .f32⟩ : BufTy).Contents (Elt F)),
    unary main_arg7 main_v59 ((extractStridedSlice S128 ![0] · slices_S384_S128_0) : (⟨S384, .f32⟩ : BufTy).Contents (Elt F) → (⟨S128, .f32⟩ : BufTy).Contents (Elt F)),
    unary main_arg7 main_v60 ((extractStridedSlice S128 ![128] · slices_S384_S128_128) : (⟨S384, .f32⟩ : BufTy).Contents (Elt F) → (⟨S128, .f32⟩ : BufTy).Contents (Elt F)),
    unary main_arg7 main_v61 ((extractStridedSlice S128 ![256] · slices_S384_S128_256) : (⟨S384, .f32⟩ : BufTy).Contents (Elt F) → (⟨S128, .f32⟩ : BufTy).Contents (Elt F)),
    unary main_v59 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v56 main_v63 main_v64 (addf : (⟨S100000x128, .f32⟩ : BufTy).Contents (Elt F) → (⟨S100000x128, .f32⟩ : BufTy).Contents (Elt F) → (⟨S100000x128, .f32⟩ : BufTy).Contents (Elt F)),
    unary main_v64 main_v65 (Host.negf : (⟨S100000x128, .f32⟩ : BufTy).Contents (Elt F) → (⟨S100000x128, .f32⟩ : BufTy).Contents (Elt F)),
    unary main_v65 main_v66 (Host.exp : (⟨S100000x128, .f32⟩ : BufTy).Contents (Elt F) → (⟨S100000x128, .f32⟩ : BufTy).Contents (Elt F)),
    nullary main_cst_10 (constant S_ .f32 0x3F800000#32),
    unary main_cst_10 main_v67 (broadcastInDim S100000x128 ![] bcast_S_S100000x128 : (⟨S_, .f32⟩ : BufTy).Contents (Elt F) → (⟨S100000x128, .f32⟩ : BufTy).Contents (Elt F)),
    binary main_v67 main_v66 main_v68 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3F800000#32),
    unary main_cst_11 main_v69 (broadcastInDim S100000x128 ![] bcast_S_S100000x128 : (⟨S_, .f32⟩ : BufTy).Contents (Elt F) → (⟨S100000x128, .f32⟩ : BufTy).Contents (Elt F)),
    binary main_v69 main_v68 main_v70 (Host.divf : (⟨S100000x128, .f32⟩ : BufTy).Contents (Elt F) → (⟨S100000x128, .f32⟩ : BufTy).Contents (Elt F) → (⟨S100000x128, .f32⟩ : BufTy).Contents (Elt F)),
    unary main_v60 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v57 main_v72 main_v73 (addf : (⟨S100000x128, .f32⟩ : BufTy).Contents (Elt F) → (⟨S100000x128, .f32⟩ : BufTy).Contents (Elt F) → (⟨S100000x128, .f32⟩ : BufTy).Contents (Elt F)),
    unary main_v73 main_v74 (Host.negf : (⟨S100000x128, .f32⟩ : BufTy).Contents (Elt F) → (⟨S100000x128, .f32⟩ : BufTy).Contents (Elt F)),
    unary main_v74 main_v75 (Host.exp : (⟨S100000x128, .f32⟩ : BufTy).Contents (Elt F) → (⟨S100000x128, .f32⟩ : BufTy).Contents (Elt F)),
    nullary main_cst_12 (constant S_ .f32 0x3F800000#32),
    unary main_cst_12 main_v76 (broadcastInDim S100000x128 ![] bcast_S_S100000x128 : (⟨S_, .f32⟩ : BufTy).Contents (Elt F) → (⟨S100000x128, .f32⟩ : BufTy).Contents (Elt F)),
    binary main_v76 main_v75 main_v77 (addf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3F800000#32),
    unary main_cst_13 main_v78 (broadcastInDim S100000x128 ![] bcast_S_S100000x128 : (⟨S_, .f32⟩ : BufTy).Contents (Elt F) → (⟨S100000x128, .f32⟩ : BufTy).Contents (Elt F)),
    binary main_v78 main_v77 main_v79 (Host.divf : (⟨S100000x128, .f32⟩ : BufTy).Contents (Elt F) → (⟨S100000x128, .f32⟩ : BufTy).Contents (Elt F) → (⟨S100000x128, .f32⟩ : BufTy).Contents (Elt F)),
    unary main_v61 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v70 main_v81 main_v82 (mulf : (⟨S100000x128, .f32⟩ : BufTy).Contents (Elt F) → (⟨S100000x128, .f32⟩ : BufTy).Contents (Elt F) → (⟨S100000x128, .f32⟩ : BufTy).Contents (Elt F)),
    binary main_v58 main_v82 main_v83 (addf : (⟨S100000x128, .f32⟩ : BufTy).Contents (Elt F) → (⟨S100000x128, .f32⟩ : BufTy).Contents (Elt F) → (⟨S100000x128, .f32⟩ : BufTy).Contents (Elt F)),
    unary main_v83 main_v84 (Host.tanh : (⟨S100000x128, .f32⟩ : BufTy).Contents (Elt F) → (⟨S100000x128, .f32⟩ : BufTy).Contents (Elt F)),
    nullary main_cst_14 (constant S_ .f32 0x3F800000#32),
    unary main_cst_14 main_v85 (broadcastInDim S100000x128 ![] bcast_S_S100000x128 : (⟨S_, .f32⟩ : BufTy).Contents (Elt F) → (⟨S100000x128, .f32⟩ : BufTy).Contents (Elt F)),
    binary main_v85 main_v79 main_v86 (subf : (⟨S100000x128, .f32⟩ : BufTy).Contents (Elt F) → (⟨S100000x128, .f32⟩ : BufTy).Contents (Elt F) → (⟨S100000x128, .f32⟩ : BufTy).Contents (Elt F)),
    binary main_v86 main_v84 main_v87 (mulf : (⟨S100000x128, .f32⟩ : BufTy).Contents (Elt F) → (⟨S100000x128, .f32⟩ : BufTy).Contents (Elt F) → (⟨S100000x128, .f32⟩ : BufTy).Contents (Elt F)),
    unary main_arg8 main_v88 ((transpose S128x128 [1, 0] · transposes_S128x128_S128x128_1_0) : (⟨S128x128, .f32⟩ : BufTy).Contents (Elt F) → (⟨S128x128, .f32⟩ : BufTy).Contents (Elt F)),
    binary main_v87 main_v88 main_v89 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_15 (constantI S_ 32 0#32),
    unary main_c_15 main_v90 (broadcastInDim S1700000 ![] bcast_S_S1700000 : (⟨S_, .i32⟩ : BufTy).Contents (Elt F) → (⟨S1700000, .i32⟩ : BufTy).Contents (Elt F)),
    binary main_v3 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v92 (broadcastInDim S1700000 ![] bcast_S_S1700000 : (⟨S_, .i32⟩ : BufTy).Contents (Elt F) → (⟨S1700000, .i32⟩ : BufTy).Contents (Elt F)),
    binary main_v3 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v3 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v94 main_v95 (broadcastInDim S1700000x1 ![0] bcast_S1700000_S1700000x1_0 : (⟨S1700000, .i32⟩ : BufTy).Contents (Elt F) → (⟨S1700000x1, .i32⟩ : BufTy).Contents (Elt F)),
    binary main_v89 main_v95 main_v96 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v97 (broadcastInDim S1700000x128 ![0, 1] bcast_S1700000x1_S1700000x128_0_1 : (⟨S1700000x1, .f32⟩ : BufTy).Contents (Elt F) → (⟨S1700000x128, .f32⟩ : BufTy).Contents (Elt F)),
    binary main_v96 main_v97 main_v98 (mulf : (⟨S1700000x128, .f32⟩ : BufTy).Contents (Elt F) → (⟨S1700000x128, .f32⟩ : BufTy).Contents (Elt F) → (⟨S1700000x128, .f32⟩ : BufTy).Contents (Elt F)),
    nullary main_cst_17 (constant S_ .f32 0x00000000#32),
    unary main_cst_17 main_v99 (broadcastInDim S100000x128 ![] bcast_S_S100000x128 : (⟨S_, .f32⟩ : BufTy).Contents (Elt F) → (⟨S100000x128, .f32⟩ : BufTy).Contents (Elt F)),
    unary main_v6 main_v100 (broadcastInDim S1700000x1 ![0] bcast_S1700000_S1700000x1_0 : (⟨S1700000, .i32⟩ : BufTy).Contents (Elt F) → (⟨S1700000x1, .i32⟩ : BufTy).Contents (Elt F)),
    ternary main_v99 main_v100 main_v98 main_v101 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg9 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v101 main_v103 main_v104 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v104) (TRef.of (T := ⟨S100000x128, .f32⟩) main_call2_v0) (TRef.of (T := ⟨S100000x128, .f32⟩) main_v105) maximumf,
    unary main_arg10 main_v106 ((transpose S128x384 [1, 0] · transposes_S384x128_S128x384_1_0) : (⟨S384x128, .f32⟩ : BufTy).Contents (Elt F) → (⟨S128x384, .f32⟩ : BufTy).Contents (Elt F)),
    binary main_v105 main_v106 main_v107 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg12 main_v108 (broadcastInDim S1x384 ![1] bcast_S384_S1x384_1 : (⟨S384, .f32⟩ : BufTy).Contents (Elt F) → (⟨S1x384, .f32⟩ : BufTy).Contents (Elt F)),
    unary main_v108 main_v109 (broadcastInDim S100000x384 ![0, 1] bcast_S1x384_S100000x384_0_1 : (⟨S1x384, .f32⟩ : BufTy).Contents (Elt F) → (⟨S100000x384, .f32⟩ : BufTy).Contents (Elt F)),
    binary main_v107 main_v109 main_v110 (addf : (⟨S100000x384, .f32⟩ : BufTy).Contents (Elt F) → (⟨S100000x384, .f32⟩ : BufTy).Contents (Elt F) → (⟨S100000x384, .f32⟩ : BufTy).Contents (Elt F)),
    unary main_v110 main_v111 ((extractStridedSlice S100000x128 ![0, 0] · slices_S100000x384_S100000x128_0_0) : (⟨S100000x384, .f32⟩ : BufTy).Contents (Elt F) → (⟨S100000x128, .f32⟩ : BufTy).Contents (Elt F)),
    unary main_v110 main_v112 ((extractStridedSlice S100000x128 ![0, 128] · slices_S100000x384_S100000x128_0_128) : (⟨S100000x384, .f32⟩ : BufTy).Contents (Elt F) → (⟨S100000x128, .f32⟩ : BufTy).Contents (Elt F)),
    unary main_v110 main_v113 ((extractStridedSlice S100000x128 ![0, 256] · slices_S100000x384_S100000x128_0_256) : (⟨S100000x384, .f32⟩ : BufTy).Contents (Elt F) → (⟨S100000x128, .f32⟩ : BufTy).Contents (Elt F)),
    unary main_arg13 main_v114 ((extractStridedSlice S128 ![0] · slices_S384_S128_0) : (⟨S384, .f32⟩ : BufTy).Contents (Elt F) → (⟨S128, .f32⟩ : BufTy).Contents (Elt F)),
    unary main_arg13 main_v115 ((extractStridedSlice S128 ![128] · slices_S384_S128_128) : (⟨S384, .f32⟩ : BufTy).Contents (Elt F) → (⟨S128, .f32⟩ : BufTy).Contents (Elt F)),
    unary main_arg13 main_v116 ((extractStridedSlice S128 ![256] · slices_S384_S128_256) : (⟨S384, .f32⟩ : BufTy).Contents (Elt F) → (⟨S128, .f32⟩ : BufTy).Contents (Elt F)),
    unary main_v114 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v111 main_v118 main_v119 (addf : (⟨S100000x128, .f32⟩ : BufTy).Contents (Elt F) → (⟨S100000x128, .f32⟩ : BufTy).Contents (Elt F) → (⟨S100000x128, .f32⟩ : BufTy).Contents (Elt F)),
    unary main_v119 main_v120 (Host.negf : (⟨S100000x128, .f32⟩ : BufTy).Contents (Elt F) → (⟨S100000x128, .f32⟩ : BufTy).Contents (Elt F)),
    unary main_v120 main_v121 (Host.exp : (⟨S100000x128, .f32⟩ : BufTy).Contents (Elt F) → (⟨S100000x128, .f32⟩ : BufTy).Contents (Elt F)),
    nullary main_cst_18 (constant S_ .f32 0x3F800000#32),
    unary main_cst_18 main_v122 (broadcastInDim S100000x128 ![] bcast_S_S100000x128 : (⟨S_, .f32⟩ : BufTy).Contents (Elt F) → (⟨S100000x128, .f32⟩ : BufTy).Contents (Elt F)),
    binary main_v122 main_v121 main_v123 (addf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3F800000#32),
    unary main_cst_19 main_v124 (broadcastInDim S100000x128 ![] bcast_S_S100000x128 : (⟨S_, .f32⟩ : BufTy).Contents (Elt F) → (⟨S100000x128, .f32⟩ : BufTy).Contents (Elt F)),
    binary main_v124 main_v123 main_v125 (Host.divf : (⟨S100000x128, .f32⟩ : BufTy).Contents (Elt F) → (⟨S100000x128, .f32⟩ : BufTy).Contents (Elt F) → (⟨S100000x128, .f32⟩ : BufTy).Contents (Elt F)),
    unary main_v115 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v112 main_v127 main_v128 (addf : (⟨S100000x128, .f32⟩ : BufTy).Contents (Elt F) → (⟨S100000x128, .f32⟩ : BufTy).Contents (Elt F) → (⟨S100000x128, .f32⟩ : BufTy).Contents (Elt F)),
    unary main_v128 main_v129 (Host.negf : (⟨S100000x128, .f32⟩ : BufTy).Contents (Elt F) → (⟨S100000x128, .f32⟩ : BufTy).Contents (Elt F)),
    unary main_v129 main_v130 (Host.exp : (⟨S100000x128, .f32⟩ : BufTy).Contents (Elt F) → (⟨S100000x128, .f32⟩ : BufTy).Contents (Elt F)),
    nullary main_cst_20 (constant S_ .f32 0x3F800000#32),
    unary main_cst_20 main_v131 (broadcastInDim S100000x128 ![] bcast_S_S100000x128 : (⟨S_, .f32⟩ : BufTy).Contents (Elt F) → (⟨S100000x128, .f32⟩ : BufTy).Contents (Elt F)),
    binary main_v131 main_v130 main_v132 (addf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3F800000#32),
    unary main_cst_21 main_v133 (broadcastInDim S100000x128 ![] bcast_S_S100000x128 : (⟨S_, .f32⟩ : BufTy).Contents (Elt F) → (⟨S100000x128, .f32⟩ : BufTy).Contents (Elt F)),
    binary main_v133 main_v132 main_v134 (Host.divf : (⟨S100000x128, .f32⟩ : BufTy).Contents (Elt F) → (⟨S100000x128, .f32⟩ : BufTy).Contents (Elt F) → (⟨S100000x128, .f32⟩ : BufTy).Contents (Elt F)),
    unary main_v116 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v125 main_v136 main_v137 (mulf : (⟨S100000x128, .f32⟩ : BufTy).Contents (Elt F) → (⟨S100000x128, .f32⟩ : BufTy).Contents (Elt F) → (⟨S100000x128, .f32⟩ : BufTy).Contents (Elt F)),
    binary main_v113 main_v137 main_v138 (addf : (⟨S100000x128, .f32⟩ : BufTy).Contents (Elt F) → (⟨S100000x128, .f32⟩ : BufTy).Contents (Elt F) → (⟨S100000x128, .f32⟩ : BufTy).Contents (Elt F)),
    unary main_v138 main_v139 (Host.tanh : (⟨S100000x128, .f32⟩ : BufTy).Contents (Elt F) → (⟨S100000x128, .f32⟩ : BufTy).Contents (Elt F)),
    nullary main_cst_22 (constant S_ .f32 0x3F800000#32),
    unary main_cst_22 main_v140 (broadcastInDim S100000x128 ![] bcast_S_S100000x128 : (⟨S_, .f32⟩ : BufTy).Contents (Elt F) → (⟨S100000x128, .f32⟩ : BufTy).Contents (Elt F)),
    binary main_v140 main_v134 main_v141 (subf : (⟨S100000x128, .f32⟩ : BufTy).Contents (Elt F) → (⟨S100000x128, .f32⟩ : BufTy).Contents (Elt F) → (⟨S100000x128, .f32⟩ : BufTy).Contents (Elt F)),
    binary main_v141 main_v139 main_v142 (mulf : (⟨S100000x128, .f32⟩ : BufTy).Contents (Elt F) → (⟨S100000x128, .f32⟩ : BufTy).Contents (Elt F) → (⟨S100000x128, .f32⟩ : BufTy).Contents (Elt F)),
    unary main_arg14 main_v143 ((transpose S128x2 [1, 0] · transposes_S2x128_S128x2_1_0) : (⟨S2x128, .f32⟩ : BufTy).Contents (Elt F) → (⟨S128x2, .f32⟩ : BufTy).Contents (Elt F)),
    binary main_v142 main_v143 main_v144 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg15 main_v145 (broadcastInDim S1x2 ![1] bcast_S2_S1x2_1 : (⟨S2, .f32⟩ : BufTy).Contents (Elt F) → (⟨S1x2, .f32⟩ : BufTy).Contents (Elt F)),
    unary main_v145 main_v146 (broadcastInDim S100000x2 ![0, 1] bcast_S1x2_S100000x2_0_1 : (⟨S1x2, .f32⟩ : BufTy).Contents (Elt F) → (⟨S100000x2, .f32⟩ : BufTy).Contents (Elt F)),
    binary main_v144 main_v146 main_v147 (addf : (⟨S100000x2, .f32⟩ : BufTy).Contents (Elt F) → (⟨S100000x2, .f32⟩ : BufTy).Contents (Elt F) → (⟨S100000x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., unary_bufs_sub .., binary_bufs_sub .., binary_bufs_sub .., unary_bufs_sub .., binary_bufs_sub .., unary_bufs_sub .., unary_bufs_sub .., binary_bufs_sub ..⟩

/-- What buffer `b` of core `d` holds after @main: the fold of the operations over the launch contents. -/
abbrev held (m : (ℓ : Loc nD τ sig) → Buf (Elt F) ℓ) (d : Dev nD) (b : Ref sig .tc) :
    Buf (Elt F) ((d.tc : Thread nD τ).loc b) :=
  after (ops (F := F)) (launchContents m d) (Proc.devRef .tc b)

/-- On every core, from any memory with zero counters: every weakly fair execution of @main terminates, nothing
    faulting, with every buffer at the fold of the operations. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = held m d b :=
  run_seq scopedRefs_eq scopedSems_eq defs main (fun _ => ops) main_eq (fun _ => ops_sub) m ρ

end Cert.ReferenceIdeal.HostRun

end
-- ==== Proof.RefSegments.lean ====
/-
  The reference's operation list cut where the kernel's program has its regions.

  In order: the shared preamble (the edge lists with self loops, the degrees, the normalisation, the transposed input
  weight); the feature transform; layer 0's gather, scale and scatter; layer 0's bias, rectifier and gated cell;
  the transposed hidden weight; the hidden transform; layer 1's gather, scale and scatter; layer 1's bias,
  rectifier, gated cell and head.  The fold over the whole list is the fold over the pieces in turn, so what a piece
  computes can be read from any contents `Y` it starts from: each dense piece is the corresponding stage function of
  the buffers it reads.
-/
import proofs.«153861_j44822278701843_1_alg».proof.Proof.RefRun
import proofs.«153861_j44822278701843_1_alg».proof.Proof.RefStages

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append : ∀ (l₁ l₂ : List (HloOp τ sig (Elt F))) (V : Valuation τ sig (Elt F)), after (l₁ ++ l₂) V = after l₂ (after l₁ V)
  | [], _, _ => rfl
  | op :: l₁, l₂, V => after_append l₁ l₂ (op.result V)

/-- The preamble: edge lists with self loops, degrees, normalisation, the transposed input weight. -/
abbrev segPre : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.sqrt : (⟨S100000, .f32⟩ : BufTy).Contents (Elt F) → (⟨S100000, .f32⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v14 main_v13 main_v15 (Host.divf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    unary main_v31 main_v32 (broadcastInDim S1700000x1 ![0] bcast_S1700000_S1700000x1_0 : (⟨S1700000, .f32⟩ : BufTy).Contents (Elt F) → (⟨S1700000x1, .f32⟩ : BufTy).Contents (Elt F)),
    unary main_arg2 main_v33 ((transpose S165x128 [1, 0] · transposes_S128x165_S165x128_1_0) : (⟨S128x165, .f32⟩ : BufTy).Contents (Elt F) → (⟨S165x128, .f32⟩ : BufTy).Contents (Elt F)) ]

/-- The feature transform. -/
abbrev segX : List (HloOp τ sig (Elt F)) :=
  [ binary main_arg0 main_v33 main_v34 ((fun l r => Host.dotGeneral dot_S100000x165_S165x128_S100000x128_1_0_0_1_n_n none l r) : (⟨S100000x165, .f32⟩ : BufTy).Contents (Elt F) → (⟨S165x128, .f32⟩ : BufTy).Contents (Elt F) → (⟨S100000x128, .f32⟩ : BufTy).Contents (Elt F)) ]

/-- Layer 0's gather, scale and scatter. -/
abbrev segAgg0 : List (HloOp τ sig (Elt F)) :=
  [ nullary main_c_7 (constantI S_ 32 0#32),
    unary main_c_7 main_v35 (broadcastInDim S1700000 ![] bcast_S_S1700000 : (⟨S_, .i32⟩ : BufTy).Contents (Elt F) → (⟨S1700000, .i32⟩ : BufTy).Contents (Elt F)),
    binary main_v3 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v37 (broadcastInDim S1700000 ![] bcast_S_S1700000 : (⟨S_, .i32⟩ : BufTy).Contents (Elt F) → (⟨S1700000, .i32⟩ : BufTy).Contents (Elt F)),
    binary main_v3 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v34 main_v40 main_v41 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v42 (broadcastInDim S1700000x128 ![0, 1] bcast_S1700000x1_S1700000x128_0_1 : (⟨S1700000x1, .f32⟩ : BufTy).Contents (Elt F) → (⟨S1700000x128, .f32⟩ : BufTy).Contents (Elt F)),
    binary main_v41 main_v42 main_v43 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v44 (broadcastInDim S100000x128 ![] bcast_S_S100000x128 : (⟨S_, .f32⟩ : BufTy).Contents (Elt F) → (⟨S100000x128, .f32⟩ : BufTy).Contents (Elt F)),
    unary main_v6 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Layer 0's bias, rectifier, gates and cell. -/
abbrev segLayer0 : List (HloOp τ sig (Elt F)) :=
  [ unary main_arg3 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v49) (TRef.of (T := ⟨S100000x128, .f32⟩) main_call1_v0) (TRef.of (T := ⟨S100000x128, .f32⟩) main_v50) maximumf,
    unary main_arg4 main_v51 ((transpose S128x384 [1, 0] · transposes_S384x128_S128x384_1_0) : (⟨S384x128, .f32⟩ : BufTy).Contents (Elt F) → (⟨S128x384, .f32⟩ : BufTy).Contents (Elt F)),
    binary main_v50 main_v51 main_v52 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg6 main_v53 (broadcastInDim S1x384 ![1] bcast_S384_S1x384_1 : (⟨S384, .f32⟩ : BufTy).Contents (Elt F) → (⟨S1x384, .f32⟩ : BufTy).Contents (Elt F)),
    unary main_v53 main_v54 (broadcastInDim S100000x384 ![0, 1] bcast_S1x384_S100000x384_0_1 : (⟨S1x384, .f32⟩ : BufTy).Contents (Elt F) → (⟨S100000x384, .f32⟩ : BufTy).Contents (Elt F)),
    binary main_v52 main_v54 main_v55 (addf : (⟨S100000x384, .f32⟩ : BufTy).Contents (Elt F) → (⟨S100000x384, .f32⟩ : BufTy).Contents (Elt F) → (⟨S100000x384, .f32⟩ : BufTy).Contents (Elt F)),
    unary main_v55 main_v56 ((extractStridedSlice S100000x128 ![0, 0] · slices_S100000x384_S100000x128_0_0) : (⟨S100000x384, .f32⟩ : BufTy).Contents (Elt F) → (⟨S100000x128, .f32⟩ : BufTy).Contents (Elt F)),
    unary main_v55 main_v57 ((extractStridedSlice S100000x128 ![0, 128] · slices_S100000x384_S100000x128_0_128) : (⟨S100000x384, .f32⟩ : BufTy).Contents (Elt F) → (⟨S100000x128, .f32⟩ : BufTy).Contents (Elt F)),
    unary main_v55 main_v58 ((extractStridedSlice S100000x128 ![0, 256] · slices_S100000x384_S100000x128_0_256) : (⟨S100000x384, .f32⟩ : BufTy).Contents (Elt F) → (⟨S100000x128, .f32⟩ : BufTy).Contents (Elt F)),
    unary main_arg7 main_v59 ((extractStridedSlice S128 ![0] · slices_S384_S128_0) : (⟨S384, .f32⟩ : BufTy).Contents (Elt F) → (⟨S128, .f32⟩ : BufTy).Contents (Elt F)),
    unary main_arg7 main_v60 ((extractStridedSlice S128 ![128] · slices_S384_S128_128) : (⟨S384, .f32⟩ : BufTy).Contents (Elt F) → (⟨S128, .f32⟩ : BufTy).Contents (Elt F)),
    unary main_arg7 main_v61 ((extractStridedSlice S128 ![256] · slices_S384_S128_256) : (⟨S384, .f32⟩ : BufTy).Contents (Elt F) → (⟨S128, .f32⟩ : BufTy).Contents (Elt F)),
    unary main_v59 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v56 main_v63 main_v64 (addf : (⟨S100000x128, .f32⟩ : BufTy).Contents (Elt F) → (⟨S100000x128, .f32⟩ : BufTy).Contents (Elt F) → (⟨S100000x128, .f32⟩ : BufTy).Contents (Elt F)),
    unary main_v64 main_v65 (Host.negf : (⟨S100000x128, .f32⟩ : BufTy).Contents (Elt F) → (⟨S100000x128, .f32⟩ : BufTy).Contents (Elt F)),
    unary main_v65 main_v66 (Host.exp : (⟨S100000x128, .f32⟩ : BufTy).Contents (Elt F) → (⟨S100000x128, .f32⟩ : BufTy).Contents (Elt F)),
    nullary main_cst_10 (constant S_ .f32 0x3F800000#32),
    unary main_cst_10 main_v67 (broadcastInDim S100000x128 ![] bcast_S_S100000x128 : (⟨S_, .f32⟩ : BufTy).Contents (Elt F) → (⟨S100000x128, .f32⟩ : BufTy).Contents (Elt F)),
    binary main_v67 main_v66 main_v68 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3F800000#32),
    unary main_cst_11 main_v69 (broadcastInDim S100000x128 ![] bcast_S_S100000x128 : (⟨S_, .f32⟩ : BufTy).Contents (Elt F) → (⟨S100000x128, .f32⟩ : BufTy).Contents (Elt F)),
    binary main_v69 main_v68 main_v70 (Host.divf : (⟨S100000x128, .f32⟩ : BufTy).Contents (Elt F) → (⟨S100000x128, .f32⟩ : BufTy).Contents (Elt F) → (⟨S100000x128, .f32⟩ : BufTy).Contents (Elt F)),
    unary main_v60 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v57 main_v72 main_v73 (addf : (⟨S100000x128, .f32⟩ : BufTy).Contents (Elt F) → (⟨S100000x128, .f32⟩ : BufTy).Contents (Elt F) → (⟨S100000x128, .f32⟩ : BufTy).Contents (Elt F)),
    unary main_v73 main_v74 (Host.negf : (⟨S100000x128, .f32⟩ : BufTy).Contents (Elt F) → (⟨S100000x128, .f32⟩ : BufTy).Contents (Elt F)),
    unary main_v74 main_v75 (Host.exp : (⟨S100000x128, .f32⟩ : BufTy).Contents (Elt F) → (⟨S100000x128, .f32⟩ : BufTy).Contents (Elt F)),
    nullary main_cst_12 (constant S_ .f32 0x3F800000#32),
    unary main_cst_12 main_v76 (broadcastInDim S100000x128 ![] bcast_S_S100000x128 : (⟨S_, .f32⟩ : BufTy).Contents (Elt F) → (⟨S100000x128, .f32⟩ : BufTy).Contents (Elt F)),
    binary main_v76 main_v75 main_v77 (addf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3F800000#32),
    unary main_cst_13 main_v78 (broadcastInDim S100000x128 ![] bcast_S_S100000x128 : (⟨S_, .f32⟩ : BufTy).Contents (Elt F) → (⟨S100000x128, .f32⟩ : BufTy).Contents (Elt F)),
    binary main_v78 main_v77 main_v79 (Host.divf : (⟨S100000x128, .f32⟩ : BufTy).Contents (Elt F) → (⟨S100000x128, .f32⟩ : BufTy).Contents (Elt F) → (⟨S100000x128, .f32⟩ : BufTy).Contents (Elt F)),
    unary main_v61 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v70 main_v81 main_v82 (mulf : (⟨S100000x128, .f32⟩ : BufTy).Contents (Elt F) → (⟨S100000x128, .f32⟩ : BufTy).Contents (Elt F) → (⟨S100000x128, .f32⟩ : BufTy).Contents (Elt F)),
    binary main_v58 main_v82 main_v83 (addf : (⟨S100000x128, .f32⟩ : BufTy).Contents (Elt F) → (⟨S100000x128, .f32⟩ : BufTy).Contents (Elt F) → (⟨S100000x128, .f32⟩ : BufTy).Contents (Elt F)),
    unary main_v83 main_v84 (Host.tanh : (⟨S100000x128, .f32⟩ : BufTy).Contents (Elt F) → (⟨S100000x128, .f32⟩ : BufTy).Contents (Elt F)),
    nullary main_cst_14 (constant S_ .f32 0x3F800000#32),
    unary main_cst_14 main_v85 (broadcastInDim S100000x128 ![] bcast_S_S100000x128 : (⟨S_, .f32⟩ : BufTy).Contents (Elt F) → (⟨S100000x128, .f32⟩ : BufTy).Contents (Elt F)),
    binary main_v85 main_v79 main_v86 (subf : (⟨S100000x128, .f32⟩ : BufTy).Contents (Elt F) → (⟨S100000x128, .f32⟩ : BufTy).Contents (Elt F) → (⟨S100000x128, .f32⟩ : BufTy).Contents (Elt F)),
    binary main_v86 main_v84 main_v87 (mulf : (⟨S100000x128, .f32⟩ : BufTy).Contents (Elt F) → (⟨S100000x128, .f32⟩ : BufTy).Contents (Elt F) → (⟨S100000x128, .f32⟩ : BufTy).Contents (Elt F)) ]

/-- The transposed hidden weight. -/
abbrev segW1 : List (HloOp τ sig (Elt F)) :=
  [ unary main_arg8 main_v88 ((transpose S128x128 [1, 0] · transposes_S128x128_S128x128_1_0) : (⟨S128x128, .f32⟩ : BufTy).Contents (Elt F) → (⟨S128x128, .f32⟩ : BufTy).Contents (Elt F)) ]

/-- The hidden transform. -/
abbrev segH : List (HloOp τ sig (Elt F)) :=
  [ binary main_v87 main_v88 main_v89 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Layer 1's gather, scale and scatter. -/
abbrev segAgg1 : List (HloOp τ sig (Elt F)) :=
  [ nullary main_c_15 (constantI S_ 32 0#32),
    unary main_c_15 main_v90 (broadcastInDim S1700000 ![] bcast_S_S1700000 : (⟨S_, .i32⟩ : BufTy).Contents (Elt F) → (⟨S1700000, .i32⟩ : BufTy).Contents (Elt F)),
    binary main_v3 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v92 (broadcastInDim S1700000 ![] bcast_S_S1700000 : (⟨S_, .i32⟩ : BufTy).Contents (Elt F) → (⟨S1700000, .i32⟩ : BufTy).Contents (Elt F)),
    binary main_v3 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v3 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v94 main_v95 (broadcastInDim S1700000x1 ![0] bcast_S1700000_S1700000x1_0 : (⟨S1700000, .i32⟩ : BufTy).Contents (Elt F) → (⟨S1700000x1, .i32⟩ : BufTy).Contents (Elt F)),
    binary main_v89 main_v95 main_v96 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v97 (broadcastInDim S1700000x128 ![0, 1] bcast_S1700000x1_S1700000x128_0_1 : (⟨S1700000x1, .f32⟩ : BufTy).Contents (Elt F) → (⟨S1700000x128, .f32⟩ : BufTy).Contents (Elt F)),
    binary main_v96 main_v97 main_v98 (mulf : (⟨S1700000x128, .f32⟩ : BufTy).Contents (Elt F) → (⟨S1700000x128, .f32⟩ : BufTy).Contents (Elt F) → (⟨S1700000x128, .f32⟩ : BufTy).Contents (Elt F)),
    nullary main_cst_17 (constant S_ .f32 0x00000000#32),
    unary main_cst_17 main_v99 (broadcastInDim S100000x128 ![] bcast_S_S100000x128 : (⟨S_, .f32⟩ : BufTy).Contents (Elt F) → (⟨S100000x128, .f32⟩ : BufTy).Contents (Elt F)),
    unary main_v6 main_v100 (broadcastInDim S1700000x1 ![0] bcast_S1700000_S1700000x1_0 : (⟨S1700000, .i32⟩ : BufTy).Contents (Elt F) → (⟨S1700000x1, .i32⟩ : BufTy).Contents (Elt F)),
    ternary main_v99 main_v100 main_v98 main_v101 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Layer 1's bias, rectifier, gates, cell and head. -/
abbrev segLayer1 : List (HloOp τ sig (Elt F)) :=
  [ unary main_arg9 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v101 main_v103 main_v104 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v104) (TRef.of (T := ⟨S100000x128, .f32⟩) main_call2_v0) (TRef.of (T := ⟨S100000x128, .f32⟩) main_v105) maximumf,
    unary main_arg10 main_v106 ((transpose S128x384 [1, 0] · transposes_S384x128_S128x384_1_0) : (⟨S384x128, .f32⟩ : BufTy).Contents (Elt F) → (⟨S128x384, .f32⟩ : BufTy).Contents (Elt F)),
    binary main_v105 main_v106 main_v107 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg12 main_v108 (broadcastInDim S1x384 ![1] bcast_S384_S1x384_1 : (⟨S384, .f32⟩ : BufTy).Contents (Elt F) → (⟨S1x384, .f32⟩ : BufTy).Contents (Elt F)),
    unary main_v108 main_v109 (broadcastInDim S100000x384 ![0, 1] bcast_S1x384_S100000x384_0_1 : (⟨S1x384, .f32⟩ : BufTy).Contents (Elt F) → (⟨S100000x384, .f32⟩ : BufTy).Contents (Elt F)),
    binary main_v107 main_v109 main_v110 (addf : (⟨S100000x384, .f32⟩ : BufTy).Contents (Elt F) → (⟨S100000x384, .f32⟩ : BufTy).Contents (Elt F) → (⟨S100000x384, .f32⟩ : BufTy).Contents (Elt F)),
    unary main_v110 main_v111 ((extractStridedSlice S100000x128 ![0, 0] · slices_S100000x384_S100000x128_0_0) : (⟨S100000x384, .f32⟩ : BufTy).Contents (Elt F) → (⟨S100000x128, .f32⟩ : BufTy).Contents (Elt F)),
    unary main_v110 main_v112 ((extractStridedSlice S100000x128 ![0, 128] · slices_S100000x384_S100000x128_0_128) : (⟨S100000x384, .f32⟩ : BufTy).Contents (Elt F) → (⟨S100000x128, .f32⟩ : BufTy).Contents (Elt F)),
    unary main_v110 main_v113 ((extractStridedSlice S100000x128 ![0, 256] · slices_S100000x384_S100000x128_0_256) : (⟨S100000x384, .f32⟩ : BufTy).Contents (Elt F) → (⟨S100000x128, .f32⟩ : BufTy).Contents (Elt F)),
    unary main_arg13 main_v114 ((extractStridedSlice S128 ![0] · slices_S384_S128_0) : (⟨S384, .f32⟩ : BufTy).Contents (Elt F) → (⟨S128, .f32⟩ : BufTy).Contents (Elt F)),
    unary main_arg13 main_v115 ((extractStridedSlice S128 ![128] · slices_S384_S128_128) : (⟨S384, .f32⟩ : BufTy).Contents (Elt F) → (⟨S128, .f32⟩ : BufTy).Contents (Elt F)),
    unary main_arg13 main_v116 ((extractStridedSlice S128 ![256] · slices_S384_S128_256) : (⟨S384, .f32⟩ : BufTy).Contents (Elt F) → (⟨S128, .f32⟩ : BufTy).Contents (Elt F)),
    unary main_v114 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v111 main_v118 main_v119 (addf : (⟨S100000x128, .f32⟩ : BufTy).Contents (Elt F) → (⟨S100000x128, .f32⟩ : BufTy).Contents (Elt F) → (⟨S100000x128, .f32⟩ : BufTy).Contents (Elt F)),
    unary main_v119 main_v120 (Host.negf : (⟨S100000x128, .f32⟩ : BufTy).Contents (Elt F) → (⟨S100000x128, .f32⟩ : BufTy).Contents (Elt F)),
    unary main_v120 main_v121 (Host.exp : (⟨S100000x128, .f32⟩ : BufTy).Contents (Elt F) → (⟨S100000x128, .f32⟩ : BufTy).Contents (Elt F)),
    nullary main_cst_18 (constant S_ .f32 0x3F800000#32),
    unary main_cst_18 main_v122 (broadcastInDim S100000x128 ![] bcast_S_S100000x128 : (⟨S_, .f32⟩ : BufTy).Contents (Elt F) → (⟨S100000x128, .f32⟩ : BufTy).Contents (Elt F)),
    binary main_v122 main_v121 main_v123 (addf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3F800000#32),
    unary main_cst_19 main_v124 (broadcastInDim S100000x128 ![] bcast_S_S100000x128 : (⟨S_, .f32⟩ : BufTy).Contents (Elt F) → (⟨S100000x128, .f32⟩ : BufTy).Contents (Elt F)),
    binary main_v124 main_v123 main_v125 (Host.divf : (⟨S100000x128, .f32⟩ : BufTy).Contents (Elt F) → (⟨S100000x128, .f32⟩ : BufTy).Contents (Elt F) → (⟨S100000x128, .f32⟩ : BufTy).Contents (Elt F)),
    unary main_v115 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v112 main_v127 main_v128 (addf : (⟨S100000x128, .f32⟩ : BufTy).Contents (Elt F) → (⟨S100000x128, .f32⟩ : BufTy).Contents (Elt F) → (⟨S100000x128, .f32⟩ : BufTy).Contents (Elt F)),
    unary main_v128 main_v129 (Host.negf : (⟨S100000x128, .f32⟩ : BufTy).Contents (Elt F) → (⟨S100000x128, .f32⟩ : BufTy).Contents (Elt F)),
    unary main_v129 main_v130 (Host.exp : (⟨S100000x128, .f32⟩ : BufTy).Contents (Elt F) → (⟨S100000x128, .f32⟩ : BufTy).Contents (Elt F)),
    nullary main_cst_20 (constant S_ .f32 0x3F800000#32),
    unary main_cst_20 main_v131 (broadcastInDim S100000x128 ![] bcast_S_S100000x128 : (⟨S_, .f32⟩ : BufTy).Contents (Elt F) → (⟨S100000x128, .f32⟩ : BufTy).Contents (Elt F)),
    binary main_v131 main_v130 main_v132 (addf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3F800000#32),
    unary main_cst_21 main_v133 (broadcastInDim S100000x128 ![] bcast_S_S100000x128 : (⟨S_, .f32⟩ : BufTy).Contents (Elt F) → (⟨S100000x128, .f32⟩ : BufTy).Contents (Elt F)),
    binary main_v133 main_v132 main_v134 (Host.divf : (⟨S100000x128, .f32⟩ : BufTy).Contents (Elt F) → (⟨S100000x128, .f32⟩ : BufTy).Contents (Elt F) → (⟨S100000x128, .f32⟩ : BufTy).Contents (Elt F)),
    unary main_v116 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v125 main_v136 main_v137 (mulf : (⟨S100000x128, .f32⟩ : BufTy).Contents (Elt F) → (⟨S100000x128, .f32⟩ : BufTy).Contents (Elt F) → (⟨S100000x128, .f32⟩ : BufTy).Contents (Elt F)),
    binary main_v113 main_v137 main_v138 (addf : (⟨S100000x128, .f32⟩ : BufTy).Contents (Elt F) → (⟨S100000x128, .f32⟩ : BufTy).Contents (Elt F) → (⟨S100000x128, .f32⟩ : BufTy).Contents (Elt F)),
    unary main_v138 main_v139 (Host.tanh : (⟨S100000x128, .f32⟩ : BufTy).Contents (Elt F) → (⟨S100000x128, .f32⟩ : BufTy).Contents (Elt F)),
    nullary main_cst_22 (constant S_ .f32 0x3F800000#32),
    unary main_cst_22 main_v140 (broadcastInDim S100000x128 ![] bcast_S_S100000x128 : (⟨S_, .f32⟩ : BufTy).Contents (Elt F) → (⟨S100000x128, .f32⟩ : BufTy).Contents (Elt F)),
    binary main_v140 main_v134 main_v141 (subf : (⟨S100000x128, .f32⟩ : BufTy).Contents (Elt F) → (⟨S100000x128, .f32⟩ : BufTy).Contents (Elt F) → (⟨S100000x128, .f32⟩ : BufTy).Contents (Elt F)),
    binary main_v141 main_v139 main_v142 (mulf : (⟨S100000x128, .f32⟩ : BufTy).Contents (Elt F) → (⟨S100000x128, .f32⟩ : BufTy).Contents (Elt F) → (⟨S100000x128, .f32⟩ : BufTy).Contents (Elt F)),
    unary main_arg14 main_v143 ((transpose S128x2 [1, 0] · transposes_S2x128_S128x2_1_0) : (⟨S2x128, .f32⟩ : BufTy).Contents (Elt F) → (⟨S128x2, .f32⟩ : BufTy).Contents (Elt F)),
    binary main_v142 main_v143 main_v144 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg15 main_v145 (broadcastInDim S1x2 ![1] bcast_S2_S1x2_1 : (⟨S2, .f32⟩ : BufTy).Contents (Elt F) → (⟨S1x2, .f32⟩ : BufTy).Contents (Elt F)),
    unary main_v145 main_v146 (broadcastInDim S100000x2 ![0, 1] bcast_S1x2_S100000x2_0_1 : (⟨S1x2, .f32⟩ : BufTy).Contents (Elt F) → (⟨S100000x2, .f32⟩ : BufTy).Contents (Elt F)),
    binary main_v144 main_v146 main_v147 (addf : (⟨S100000x2, .f32⟩ : BufTy).Contents (Elt F) → (⟨S100000x2, .f32⟩ : BufTy).Contents (Elt F) → (⟨S100000x2, .f32⟩ : BufTy).Contents (Elt F)) ]

set_option maxRecDepth 8192 in
theorem ops_split : (ops : List (HloOp τ sig (Elt F)))
    = segPre ++ (segX ++ (segAgg0 ++ (segLayer0 ++ (segW1 ++ (segH ++ (segAgg1 ++ segLayer1)))))) := rfl

/-- The final contents piece by piece. -/
theorem held_split (m : (ℓ : Loc nD τ sig) → Buf (Elt F) ℓ) (d : Dev nD) (b : Ref sig .tc) :
    held m d b = after segLayer1 (after segAgg1 (after segH (after segW1 (after segLayer0 (after segAgg0 (after segX
      (after segPre (launchContents m d)))))))) (Proc.devRef .tc b) := by
  unfold held
  rw [ops_split]
  simp only [after_append]

/-! ## What each dense piece computes, from any starting contents -/

variable (Y : Valuation τ sig (Elt F))

theorem stepX : after segX Y (Proc.devRef .tc main_v34)
    = Stage.transformX (Y (Proc.devRef .tc main_arg0)) (Y (Proc.devRef .tc main_v33)) := by
  after_results <;> rfl

theorem stepH : after segH Y (Proc.devRef .tc main_v89)
    = Stage.transformH (Y (Proc.devRef .tc main_v87)) (Y (Proc.devRef .tc main_v88)) := by
  after_results <;> rfl

theorem stepW1 : after segW1 Y (Proc.devRef .tc main_v88)
    = transpose S128x128 [1, 0] (Y (Proc.devRef .tc main_arg8)) transposes_S128x128_S128x128_1_0 := by
  after_results <;> rfl

set_option maxRecDepth 8192 in
theorem stepLayer0 : after segLayer0 Y (Proc.devRef .tc main_v87)
    = Stage.layer (Y (Proc.devRef .tc main_v46)) (Y (Proc.devRef .tc main_arg3))
        (transpose S128x384 [1, 0] (Y (Proc.devRef .tc main_arg4)) transposes_S384x128_S128x384_1_0)
        (Y (Proc.devRef .tc main_arg6)) (Y (Proc.devRef .tc main_arg7)) := by
  after_results_simp <;> rfl

set_option maxRecDepth 8192 in
theorem stepLayer1 : after segLayer1 Y (Proc.devRef .tc main_v147)
    = Stage.head
        (Stage.layer (Y (Proc.devRef .tc main_v101)) (Y (Proc.devRef .tc main_arg9))
          (transpose S128x384 [1, 0] (Y (Proc.devRef .tc main_arg10)) transposes_S384x128_S128x384_1_0)
          (Y (Proc.devRef .tc main_arg12)) (Y (Proc.devRef .tc main_arg13)))
        (transpose S128x2 [1, 0] (Y (Proc.devRef .tc main_arg14)) transposes_S2x128_S128x2_1_0)
        (Y (Proc.devRef .tc main_arg15)) := by
  after_results_simp <;> rfl

end Cert.ReferenceIdeal.HostRun

end
-- ==== Proof.HostStretches.lean ====
/-
  The two programs' host stretches, side by side.

  Between the kernel regions the kernel's program applies the same host operations as the reference does between its
  dense stages: the preamble (edge lists with self loops, degrees, normalisation, transposed weights) and, per layer,
  the gather of the transformed features along the edges, the scaling by the normalisation and the scatter back onto
  the nodes.  Started from contents that agree on the buffers a stretch reads, the two stretches leave equal contents
  in the buffers they write: each side's fold is computed operation by operation, the operands are rewritten by the
  agreement, and the two terms are then the same operations of the same operands.  Nothing about a gather or a
  scatter is used beyond its being one function of its operands.
-/
import proofs.«153861_j44822278701843_1_alg».proof.Proof.Gen.KernelIdeal.Frame
import proofs.«153861_j44822278701843_1_alg».proof.Proof.RefSegments

set_option maxRecDepth 16384

noncomputable section

namespace Cert.Bridge

open Idealize.ShloMosaic Idealize.ShloMosaic.TcCoe Idealize.SL.Sem Idealize.ShloMosaic.StableHlo

/-- Rewrites each remaining operation result at a reference to the operation's function of its operands (at its own
    result buffer) or to what was there (at any other), wherever it stands in the goal. -/
macro "results_rw" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

variable (X : Valuation Cert.KernelIdeal.τ Cert.KernelIdeal.sig (Elt Ideal)) (Y : Valuation Cert.ReferenceIdeal.τ Cert.ReferenceIdeal.sig (Elt Ideal))

/-- The preamble: from contents agreeing on the edge list and the input weight, the two sides compute equal source
    and destination lists, normalisation, and transposed input weight. -/
theorem pre_v3 (h1 : X (Proc.devRef .tc Cert.KernelIdeal.main_arg1) = Y (Proc.devRef .tc Cert.ReferenceIdeal.main_arg1)) :
    after Cert.KernelIdeal.Gen.hostOps0_2 (after Cert.KernelIdeal.Gen.hostOps0_1 (after Cert.KernelIdeal.Gen.hostOps0 X)) (Proc.devRef .tc Cert.KernelIdeal.main_v3)
      = after Cert.ReferenceIdeal.HostRun.segPre Y (Proc.devRef .tc Cert.ReferenceIdeal.main_v3) := by
  after_results_simp
  results_rw
  rw [h1] <;> rfl

theorem pre_v6 (h1 : X (Proc.devRef .tc Cert.KernelIdeal.main_arg1) = Y (Proc.devRef .tc Cert.ReferenceIdeal.main_arg1)) :
    after Cert.KernelIdeal.Gen.hostOps0_2 (after Cert.KernelIdeal.Gen.hostOps0_1 (after Cert.KernelIdeal.Gen.hostOps0 X)) (Proc.devRef .tc Cert.KernelIdeal.main_v6)
      = after Cert.ReferenceIdeal.HostRun.segPre Y (Proc.devRef .tc Cert.ReferenceIdeal.main_v6) := by
  after_results_simp
  results_rw
  rw [h1] <;> rfl

set_option maxHeartbeats 8000000 in
theorem pre_v32 (h1 : X (Proc.devRef .tc Cert.KernelIdeal.main_arg1) = Y (Proc.devRef .tc Cert.ReferenceIdeal.main_arg1)) :
    after Cert.KernelIdeal.Gen.hostOps0_2 (after Cert.KernelIdeal.Gen.hostOps0_1 (after Cert.KernelIdeal.Gen.hostOps0 X)) (Proc.devRef .tc Cert.KernelIdeal.main_v32)
      = after Cert.ReferenceIdeal.HostRun.segPre Y (Proc.devRef .tc Cert.ReferenceIdeal.main_v32) := by
  after_results_simp
  results_rw
  rw [h1] <;> rfl

theorem pre_v33 (h2 : X (Proc.devRef .tc Cert.KernelIdeal.main_arg2) = Y (Proc.devRef .tc Cert.ReferenceIdeal.main_arg2)) :
    after Cert.KernelIdeal.Gen.hostOps0_2 (after Cert.KernelIdeal.Gen.hostOps0_1 (after Cert.KernelIdeal.Gen.hostOps0 X)) (Proc.devRef .tc Cert.KernelIdeal.main_v33)
      = after Cert.ReferenceIdeal.HostRun.segPre Y (Proc.devRef .tc Cert.ReferenceIdeal.main_v33) := by
  after_results_simp
  simp only [h2]

/-- Layer 0's gather, scale and scatter. -/
theorem agg0 (h34 : X (Proc.devRef .tc Cert.KernelIdeal.main_v34) = Y (Proc.devRef .tc Cert.ReferenceIdeal.main_v34)) (h3 : X (Proc.devRef .tc Cert.KernelIdeal.main_v3) = Y (Proc.devRef .tc Cert.ReferenceIdeal.main_v3))
    (h6 : X (Proc.devRef .tc Cert.KernelIdeal.main_v6) = Y (Proc.devRef .tc Cert.ReferenceIdeal.main_v6)) (h32 : X (Proc.devRef .tc Cert.KernelIdeal.main_v32) = Y (Proc.devRef .tc Cert.ReferenceIdeal.main_v32)) :
    after Cert.KernelIdeal.Gen.hostOps1 X (Proc.devRef .tc Cert.KernelIdeal.main_v46) = after Cert.ReferenceIdeal.HostRun.segAgg0 Y (Proc.devRef .tc Cert.ReferenceIdeal.main_v46) := by
  after_results_simp
  simp only [h34, h3, h6, h32]
  rfl

/-- Layer 1's gather, scale and scatter. -/
theorem agg1 (h50 : X (Proc.devRef .tc Cert.KernelIdeal.main_v50) = Y (Proc.devRef .tc Cert.ReferenceIdeal.main_v89)) (h3 : X (Proc.devRef .tc Cert.KernelIdeal.main_v3) = Y (Proc.devRef .tc Cert.ReferenceIdeal.main_v3))
    (h6 : X (Proc.devRef .tc Cert.KernelIdeal.main_v6) = Y (Proc.devRef .tc Cert.ReferenceIdeal.main_v6)) (h32 : X (Proc.devRef .tc Cert.KernelIdeal.main_v32) = Y (Proc.devRef .tc Cert.ReferenceIdeal.main_v32)) :
    after Cert.KernelIdeal.Gen.hostOps3 X (Proc.devRef .tc Cert.KernelIdeal.main_v62) = after Cert.ReferenceIdeal.HostRun.segAgg1 Y (Proc.devRef .tc Cert.ReferenceIdeal.main_v101) := by
  after_results_simp
  simp only [h50, h3, h6, h32]
  rfl

/-- The kernel's program transposes each weight on the host before the region that reads it. -/
theorem kWih0 : after Cert.KernelIdeal.Gen.hostOps1 X (Proc.devRef .tc Cert.KernelIdeal.main_v47)
    = transpose Cert.KernelIdeal.S128x384 [1, 0] (X (Proc.devRef .tc Cert.KernelIdeal.main_arg4)) Cert.KernelIdeal.Gen.transposes_S384x128_S128x384_1_0 := by
  after_results_simp <;> rfl
theorem kW1 : after Cert.KernelIdeal.Gen.hostOps2 X (Proc.devRef .tc Cert.KernelIdeal.main_v49)
    = transpose Cert.KernelIdeal.S128x128 [1, 0] (X (Proc.devRef .tc Cert.KernelIdeal.main_arg8)) Cert.KernelIdeal.Gen.transposes_S128x128_S128x128_1_0 := by
  after_results_simp <;> rfl
theorem kWih1 : after Cert.KernelIdeal.Gen.hostOps3 X (Proc.devRef .tc Cert.KernelIdeal.main_v63)
    = transpose Cert.KernelIdeal.S128x384 [1, 0] (X (Proc.devRef .tc Cert.KernelIdeal.main_arg10)) Cert.KernelIdeal.Gen.transposes_S384x128_S128x384_1_0 := by
  after_results_simp <;> rfl
theorem kWlin : after Cert.KernelIdeal.Gen.hostOps3 X (Proc.devRef .tc Cert.KernelIdeal.main_v64)
    = transpose Cert.KernelIdeal.S128x2 [1, 0] (X (Proc.devRef .tc Cert.KernelIdeal.main_arg14)) Cert.KernelIdeal.Gen.transposes_S2x128_S128x2_1_0 := by
  after_results_simp <;> rfl

end Cert.Bridge

end
-- ==== Proof.ResultEq.lean ====
/-
  The two programs compute the same result.

  Walking both programs from the launch, stretch by stretch.  After the preamble the two sides hold equal edge lists,
  normalisation and transposed input weight.  Region 0 leaves the feature transform of its arrays, which is what the
  reference's transform computes from equal arrays.  The gather–scale–scatter stretch maps equal transforms (and the
  shared edge lists and normalisation, which no later operation and no region overwrites) to equal aggregates.
  Region 1 leaves the layer function of its arrays — the aggregate, the bias, the transposed gate weight, the gate
  biases — and the reference's layer stage is that function of equal arrays.  The hidden transform, the second
  aggregation and the last region (layer and head) follow in the same way.  An argument array is never written, so
  wherever either side reads one it reads the launch contents, on which the two memories agree.
-/
import proofs.«153861_j44822278701843_1_alg».proof.Proof.KernelRunWhole
import proofs.«153861_j44822278701843_1_alg».proof.Proof.RegionValues
import proofs.«153861_j44822278701843_1_alg».proof.Proof.HostStretches

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- From memories that agree on the argument arrays, the kernel program's result array after its last region is what
    the reference's operations compute. -/
theorem result_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.KernelIdeal.Gen.W10 m ρ c (Proc.devRef .tc Cert.KernelIdeal.main_v65) = Cert.ReferenceIdeal.HostRun.held m' c Cert.ReferenceIdeal.main_v147 := by
  obtain ⟨h0, h1, h2, h3, h4, h5, h6, h7, h8, h9, h10, h11, h12, h13, h14, h15⟩ := hag
  -- the preamble
  have g_v3 : (Cert.KernelIdeal.Gen.W3 m ρ c) (Proc.devRef .tc Cert.KernelIdeal.main_v3) = (after Cert.ReferenceIdeal.HostRun.segPre (launchContents m' c)) (Proc.devRef .tc Cert.ReferenceIdeal.main_v3) := pre_v3 (Cert.KernelIdeal.Gen.W0 m ρ c) (launchContents m' c) h1.symm
  have g_v6 : (Cert.KernelIdeal.Gen.W3 m ρ c) (Proc.devRef .tc Cert.KernelIdeal.main_v6) = (after Cert.ReferenceIdeal.HostRun.segPre (launchContents m' c)) (Proc.devRef .tc Cert.ReferenceIdeal.main_v6) := pre_v6 (Cert.KernelIdeal.Gen.W0 m ρ c) (launchContents m' c) h1.symm
  have g_v32 : (Cert.KernelIdeal.Gen.W3 m ρ c) (Proc.devRef .tc Cert.KernelIdeal.main_v32) = (after Cert.ReferenceIdeal.HostRun.segPre (launchContents m' c)) (Proc.devRef .tc Cert.ReferenceIdeal.main_v32) := pre_v32 (Cert.KernelIdeal.Gen.W0 m ρ c) (launchContents m' c) h1.symm
  have e33 : Cert.KernelIdeal.Gen.V3 m ρ c Cert.KernelIdeal.main_v33 = (after Cert.ReferenceIdeal.HostRun.segPre (launchContents m' c)) (Proc.devRef .tc Cert.ReferenceIdeal.main_v33) := pre_v33 (Cert.KernelIdeal.Gen.W0 m ρ c) (launchContents m' c) h2.symm
  -- region 0: the feature transform
  have e0 : Cert.KernelIdeal.Gen.V3 m ρ c Cert.KernelIdeal.main_arg0 = (after Cert.ReferenceIdeal.HostRun.segPre (launchContents m' c)) (Proc.devRef .tc Cert.ReferenceIdeal.main_arg0) :=
    ((by after_results_simp <;> rfl : (Cert.KernelIdeal.Gen.W3 m ρ c) (Proc.devRef .tc Cert.KernelIdeal.main_arg0) = m ((c.tc : Thread Cert.KernelIdeal.nD Cert.KernelIdeal.τ).loc Cert.KernelIdeal.main_arg0)).trans (h0.symm.trans (by after_results_simp <;> rfl : (after Cert.ReferenceIdeal.HostRun.segPre (launchContents m' c)) (Proc.devRef .tc Cert.ReferenceIdeal.main_arg0) = m' ((c.tc : Thread Cert.ReferenceIdeal.nD Cert.ReferenceIdeal.τ).loc Cert.ReferenceIdeal.main_arg0)).symm))
  have t34 : (Cert.KernelIdeal.Gen.W4 m ρ c) (Proc.devRef .tc Cert.KernelIdeal.main_v34) = (after Cert.ReferenceIdeal.HostRun.segX (after Cert.ReferenceIdeal.HostRun.segPre (launchContents m' c))) (Proc.devRef .tc Cert.ReferenceIdeal.main_v34) :=
    (Cert.KernelIdeal.Gen.W4_arr m ρ c 2).trans ((Cert.KernelIdeal.Region.final0 (Cert.KernelIdeal.Gen.V3 m ρ) c).trans
      (Eq.trans (by rw [e0, e33]) (Cert.ReferenceIdeal.HostRun.stepX (after Cert.ReferenceIdeal.HostRun.segPre (launchContents m' c))).symm))
  -- layer 0's aggregation
  have k3 : (Cert.KernelIdeal.Gen.W4 m ρ c) (Proc.devRef .tc Cert.KernelIdeal.main_v3) = (after Cert.ReferenceIdeal.HostRun.segX (after Cert.ReferenceIdeal.HostRun.segPre (launchContents m' c))) (Proc.devRef .tc Cert.ReferenceIdeal.main_v3) :=
    (Cert.KernelIdeal.Gen.W4_of_ne m ρ c Cert.KernelIdeal.main_v3 (by decide)).trans (g_v3.trans (by after_results_simp : (after Cert.ReferenceIdeal.HostRun.segX (after Cert.ReferenceIdeal.HostRun.segPre (launchContents m' c))) (Proc.devRef .tc Cert.ReferenceIdeal.main_v3) = (after Cert.ReferenceIdeal.HostRun.segPre (launchContents m' c)) (Proc.devRef .tc Cert.ReferenceIdeal.main_v3)).symm)
  have k6 : (Cert.KernelIdeal.Gen.W4 m ρ c) (Proc.devRef .tc Cert.KernelIdeal.main_v6) = (after Cert.ReferenceIdeal.HostRun.segX (after Cert.ReferenceIdeal.HostRun.segPre (launchContents m' c))) (Proc.devRef .tc Cert.ReferenceIdeal.main_v6) :=
    (Cert.KernelIdeal.Gen.W4_of_ne m ρ c Cert.KernelIdeal.main_v6 (by decide)).trans (g_v6.trans (by after_results_simp : (after Cert.ReferenceIdeal.HostRun.segX (after Cert.ReferenceIdeal.HostRun.segPre (launchContents m' c))) (Proc.devRef .tc Cert.ReferenceIdeal.main_v6) = (after Cert.ReferenceIdeal.HostRun.segPre (launchContents m' c)) (Proc.devRef .tc Cert.ReferenceIdeal.main_v6)).symm)
  have k32 : (Cert.KernelIdeal.Gen.W4 m ρ c) (Proc.devRef .tc Cert.KernelIdeal.main_v32) = (after Cert.ReferenceIdeal.HostRun.segX (after Cert.ReferenceIdeal.HostRun.segPre (launchContents m' c))) (Proc.devRef .tc Cert.ReferenceIdeal.main_v32) :=
    (Cert.KernelIdeal.Gen.W4_of_ne m ρ c Cert.KernelIdeal.main_v32 (by decide)).trans (g_v32.trans (by after_results_simp : (after Cert.ReferenceIdeal.HostRun.segX (after Cert.ReferenceIdeal.HostRun.segPre (launchContents m' c))) (Proc.devRef .tc Cert.ReferenceIdeal.main_v32) = (after Cert.ReferenceIdeal.HostRun.segPre (launchContents m' c)) (Proc.devRef .tc Cert.ReferenceIdeal.main_v32)).symm)
  have t46 : (Cert.KernelIdeal.Gen.W5 m ρ c) (Proc.devRef .tc Cert.KernelIdeal.main_v46) = (after Cert.ReferenceIdeal.HostRun.segAgg0 (after Cert.ReferenceIdeal.HostRun.segX (after Cert.ReferenceIdeal.HostRun.segPre (launchContents m' c)))) (Proc.devRef .tc Cert.ReferenceIdeal.main_v46) := agg0 (Cert.KernelIdeal.Gen.W4 m ρ c) (after Cert.ReferenceIdeal.HostRun.segX (after Cert.ReferenceIdeal.HostRun.segPre (launchContents m' c))) t34 k3 k6 k32
  -- region 1: layer 0
  have e46 : Cert.KernelIdeal.Gen.V5 m ρ c Cert.KernelIdeal.main_v46 = (after Cert.ReferenceIdeal.HostRun.segAgg0 (after Cert.ReferenceIdeal.HostRun.segX (after Cert.ReferenceIdeal.HostRun.segPre (launchContents m' c)))) (Proc.devRef .tc Cert.ReferenceIdeal.main_v46) := t46
  have e3 : Cert.KernelIdeal.Gen.V5 m ρ c Cert.KernelIdeal.main_arg3 = (after Cert.ReferenceIdeal.HostRun.segAgg0 (after Cert.ReferenceIdeal.HostRun.segX (after Cert.ReferenceIdeal.HostRun.segPre (launchContents m' c)))) (Proc.devRef .tc Cert.ReferenceIdeal.main_arg3) :=
    (((by after_results_simp : after Cert.KernelIdeal.Gen.hostOps1 (Cert.KernelIdeal.Gen.W4 m ρ c) (Proc.devRef .tc Cert.KernelIdeal.main_arg3) = (Cert.KernelIdeal.Gen.W4 m ρ c) (Proc.devRef .tc Cert.KernelIdeal.main_arg3)).trans ((Cert.KernelIdeal.Gen.W4_of_ne m ρ c Cert.KernelIdeal.main_arg3 (by decide)).trans (by after_results_simp <;> rfl : (Cert.KernelIdeal.Gen.W3 m ρ c) (Proc.devRef .tc Cert.KernelIdeal.main_arg3) = m ((c.tc : Thread Cert.KernelIdeal.nD Cert.KernelIdeal.τ).loc Cert.KernelIdeal.main_arg3)))).trans (h3.symm.trans (by after_results_simp <;> rfl : (after Cert.ReferenceIdeal.HostRun.segAgg0 (after Cert.ReferenceIdeal.HostRun.segX (after Cert.ReferenceIdeal.HostRun.segPre (launchContents m' c)))) (Proc.devRef .tc Cert.ReferenceIdeal.main_arg3) = m' ((c.tc : Thread Cert.ReferenceIdeal.nD Cert.ReferenceIdeal.τ).loc Cert.ReferenceIdeal.main_arg3)).symm))
  have e6 : Cert.KernelIdeal.Gen.V5 m ρ c Cert.KernelIdeal.main_arg6 = (after Cert.ReferenceIdeal.HostRun.segAgg0 (after Cert.ReferenceIdeal.HostRun.segX (after Cert.ReferenceIdeal.HostRun.segPre (launchContents m' c)))) (Proc.devRef .tc Cert.ReferenceIdeal.main_arg6) :=
    (((by after_results_simp : after Cert.KernelIdeal.Gen.hostOps1 (Cert.KernelIdeal.Gen.W4 m ρ c) (Proc.devRef .tc Cert.KernelIdeal.main_arg6) = (Cert.KernelIdeal.Gen.W4 m ρ c) (Proc.devRef .tc Cert.KernelIdeal.main_arg6)).trans ((Cert.KernelIdeal.Gen.W4_of_ne m ρ c Cert.KernelIdeal.main_arg6 (by decide)).trans (by after_results_simp <;> rfl : (Cert.KernelIdeal.Gen.W3 m ρ c) (Proc.devRef .tc Cert.KernelIdeal.main_arg6) = m ((c.tc : Thread Cert.KernelIdeal.nD Cert.KernelIdeal.τ).loc Cert.KernelIdeal.main_arg6)))).trans (h6.symm.trans (by after_results_simp <;> rfl : (after Cert.ReferenceIdeal.HostRun.segAgg0 (after Cert.ReferenceIdeal.HostRun.segX (after Cert.ReferenceIdeal.HostRun.segPre (launchContents m' c)))) (Proc.devRef .tc Cert.ReferenceIdeal.main_arg6) = m' ((c.tc : Thread Cert.ReferenceIdeal.nD Cert.ReferenceIdeal.τ).loc Cert.ReferenceIdeal.main_arg6)).symm))
  have e7 : Cert.KernelIdeal.Gen.V5 m ρ c Cert.KernelIdeal.main_arg7 = (after Cert.ReferenceIdeal.HostRun.segAgg0 (after Cert.ReferenceIdeal.HostRun.segX (after Cert.ReferenceIdeal.HostRun.segPre (launchContents m' c)))) (Proc.devRef .tc Cert.ReferenceIdeal.main_arg7) :=
    (((by after_results_simp : after Cert.KernelIdeal.Gen.hostOps1 (Cert.KernelIdeal.Gen.W4 m ρ c) (Proc.devRef .tc Cert.KernelIdeal.main_arg7) = (Cert.KernelIdeal.Gen.W4 m ρ c) (Proc.devRef .tc Cert.KernelIdeal.main_arg7)).trans ((Cert.KernelIdeal.Gen.W4_of_ne m ρ c Cert.KernelIdeal.main_arg7 (by decide)).trans (by after_results_simp <;> rfl : (Cert.KernelIdeal.Gen.W3 m ρ c) (Proc.devRef .tc Cert.KernelIdeal.main_arg7) = m ((c.tc : Thread Cert.KernelIdeal.nD Cert.KernelIdeal.τ).loc Cert.KernelIdeal.main_arg7)))).trans (h7.symm.trans (by after_results_simp <;> rfl : (after Cert.ReferenceIdeal.HostRun.segAgg0 (after Cert.ReferenceIdeal.HostRun.segX (after Cert.ReferenceIdeal.HostRun.segPre (launchContents m' c)))) (Proc.devRef .tc Cert.ReferenceIdeal.main_arg7) = m' ((c.tc : Thread Cert.ReferenceIdeal.nD Cert.ReferenceIdeal.τ).loc Cert.ReferenceIdeal.main_arg7)).symm))
  have a4 : (Cert.KernelIdeal.Gen.W4 m ρ c) (Proc.devRef .tc Cert.KernelIdeal.main_arg4) = (after Cert.ReferenceIdeal.HostRun.segAgg0 (after Cert.ReferenceIdeal.HostRun.segX (after Cert.ReferenceIdeal.HostRun.segPre (launchContents m' c)))) (Proc.devRef .tc Cert.ReferenceIdeal.main_arg4) :=
    (((Cert.KernelIdeal.Gen.W4_of_ne m ρ c Cert.KernelIdeal.main_arg4 (by decide)).trans (by after_results_simp <;> rfl : (Cert.KernelIdeal.Gen.W3 m ρ c) (Proc.devRef .tc Cert.KernelIdeal.main_arg4) = m ((c.tc : Thread Cert.KernelIdeal.nD Cert.KernelIdeal.τ).loc Cert.KernelIdeal.main_arg4))).trans (h4.symm.trans (by after_results_simp <;> rfl : (after Cert.ReferenceIdeal.HostRun.segAgg0 (after Cert.ReferenceIdeal.HostRun.segX (after Cert.ReferenceIdeal.HostRun.segPre (launchContents m' c)))) (Proc.devRef .tc Cert.ReferenceIdeal.main_arg4) = m' ((c.tc : Thread Cert.ReferenceIdeal.nD Cert.ReferenceIdeal.τ).loc Cert.ReferenceIdeal.main_arg4)).symm))
  have e47 : Cert.KernelIdeal.Gen.V5 m ρ c Cert.KernelIdeal.main_v47 = transpose Cert.ReferenceIdeal.S128x384 [1, 0] ((after Cert.ReferenceIdeal.HostRun.segAgg0 (after Cert.ReferenceIdeal.HostRun.segX (after Cert.ReferenceIdeal.HostRun.segPre (launchContents m' c)))) (Proc.devRef .tc Cert.ReferenceIdeal.main_arg4)) Cert.ReferenceIdeal.Gen.transposes_S384x128_S128x384_1_0 :=
    (kWih0 (Cert.KernelIdeal.Gen.W4 m ρ c)).trans (by rw [a4] <;> rfl)
  have t48 : (Cert.KernelIdeal.Gen.W6 m ρ c) (Proc.devRef .tc Cert.KernelIdeal.main_v48) = (after Cert.ReferenceIdeal.HostRun.segLayer0 (after Cert.ReferenceIdeal.HostRun.segAgg0 (after Cert.ReferenceIdeal.HostRun.segX (after Cert.ReferenceIdeal.HostRun.segPre (launchContents m' c))))) (Proc.devRef .tc Cert.ReferenceIdeal.main_v87) :=
    (Cert.KernelIdeal.Gen.W6_arr m ρ c 5).trans ((Cert.KernelIdeal.Region.final1 (Cert.KernelIdeal.Gen.V5 m ρ) c).trans
      (Eq.trans (by rw [e46, e3, e47, e6, e7]) (Cert.ReferenceIdeal.HostRun.stepLayer0 (after Cert.ReferenceIdeal.HostRun.segAgg0 (after Cert.ReferenceIdeal.HostRun.segX (after Cert.ReferenceIdeal.HostRun.segPre (launchContents m' c))))).symm))
  -- region 2: the hidden transform
  have e48 : Cert.KernelIdeal.Gen.V7 m ρ c Cert.KernelIdeal.main_v48 = (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))) (Proc.devRef .tc Cert.ReferenceIdeal.main_v87) :=
    (by after_results_simp : after Cert.KernelIdeal.Gen.hostOps2 (Cert.KernelIdeal.Gen.W6 m ρ c) (Proc.devRef .tc Cert.KernelIdeal.main_v48) = (Cert.KernelIdeal.Gen.W6 m ρ c) (Proc.devRef .tc Cert.KernelIdeal.main_v48)).trans (t48.trans (by after_results_simp : (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))) (Proc.devRef .tc Cert.ReferenceIdeal.main_v87) = (after Cert.ReferenceIdeal.HostRun.segLayer0 (after Cert.ReferenceIdeal.HostRun.segAgg0 (after Cert.ReferenceIdeal.HostRun.segX (after Cert.ReferenceIdeal.HostRun.segPre (launchContents m' c))))) (Proc.devRef .tc Cert.ReferenceIdeal.main_v87)).symm)
  have a8 : (Cert.KernelIdeal.Gen.W6 m ρ c) (Proc.devRef .tc Cert.KernelIdeal.main_arg8) = (after Cert.ReferenceIdeal.HostRun.segLayer0 (after Cert.ReferenceIdeal.HostRun.segAgg0 (after Cert.ReferenceIdeal.HostRun.segX (after Cert.ReferenceIdeal.HostRun.segPre (launchContents m' c))))) (Proc.devRef .tc Cert.ReferenceIdeal.main_arg8) :=
    (((Cert.KernelIdeal.Gen.W6_of_ne m ρ c Cert.KernelIdeal.main_arg8 (by decide)).trans ((by after_results_simp : after Cert.KernelIdeal.Gen.hostOps1 (Cert.KernelIdeal.Gen.W4 m ρ c) (Proc.devRef .tc Cert.KernelIdeal.main_arg8) = (Cert.KernelIdeal.Gen.W4 m ρ c) (Proc.devRef .tc Cert.KernelIdeal.main_arg8)).trans ((Cert.KernelIdeal.Gen.W4_of_ne m ρ c Cert.KernelIdeal.main_arg8 (by decide)).trans (by after_results_simp <;> rfl : (Cert.KernelIdeal.Gen.W3 m ρ c) (Proc.devRef .tc Cert.KernelIdeal.main_arg8) = m ((c.tc : Thread Cert.KernelIdeal.nD Cert.KernelIdeal.τ).loc Cert.KernelIdeal.main_arg8))))).trans (h8.symm.trans (by after_results_simp <;> rfl : (after Cert.ReferenceIdeal.HostRun.segLayer0 (after Cert.ReferenceIdeal.HostRun.segAgg0 (after Cert.ReferenceIdeal.HostRun.segX (after Cert.ReferenceIdeal.HostRun.segPre (launchContents m' c))))) (Proc.devRef .tc Cert.ReferenceIdeal.main_arg8) = m' ((c.tc : Thread Cert.ReferenceIdeal.nD Cert.ReferenceIdeal.τ).loc Cert.ReferenceIdeal.main_arg8)).symm))
  have e49 : Cert.KernelIdeal.Gen.V7 m ρ c Cert.KernelIdeal.main_v49 = (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))) (Proc.devRef .tc Cert.ReferenceIdeal.main_v88) :=
    (kW1 (Cert.KernelIdeal.Gen.W6 m ρ c)).trans (Eq.trans (by rw [a8] <;> rfl) (Cert.ReferenceIdeal.HostRun.stepW1 (after Cert.ReferenceIdeal.HostRun.segLayer0 (after Cert.ReferenceIdeal.HostRun.segAgg0 (after Cert.ReferenceIdeal.HostRun.segX (after Cert.ReferenceIdeal.HostRun.segPre (launchContents m' c)))))).symm)
  have t50 : (Cert.KernelIdeal.Gen.W8 m ρ c) (Proc.devRef .tc Cert.KernelIdeal.main_v50) = (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))) (Proc.devRef .tc Cert.ReferenceIdeal.main_v89) :=
    (Cert.KernelIdeal.Gen.W8_arr m ρ c 2).trans ((Cert.KernelIdeal.Region.final2 (Cert.KernelIdeal.Gen.V7 m ρ) c).trans
      (Eq.trans (by rw [e48, e49]) (Cert.ReferenceIdeal.HostRun.stepH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))).symm))
  -- layer 1's aggregation
  have q3 : (Cert.KernelIdeal.Gen.W8 m ρ c) (Proc.devRef .tc Cert.KernelIdeal.main_v3) = (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))) (Proc.devRef .tc Cert.ReferenceIdeal.main_v3) :=
    ((Cert.KernelIdeal.Gen.W8_of_ne m ρ c Cert.KernelIdeal.main_v3 (by decide)).trans ((by after_results_simp : after Cert.KernelIdeal.Gen.hostOps2 (Cert.KernelIdeal.Gen.W6 m ρ c) (Proc.devRef .tc Cert.KernelIdeal.main_v3) = (Cert.KernelIdeal.Gen.W6 m ρ c) (Proc.devRef .tc Cert.KernelIdeal.main_v3)).trans ((Cert.KernelIdeal.Gen.W6_of_ne m ρ c Cert.KernelIdeal.main_v3 (by decide)).trans ((by after_results_simp : after Cert.KernelIdeal.Gen.hostOps1 (Cert.KernelIdeal.Gen.W4 m ρ c) (Proc.devRef .tc Cert.KernelIdeal.main_v3) = (Cert.KernelIdeal.Gen.W4 m ρ c) (Proc.devRef .tc Cert.KernelIdeal.main_v3)).trans (Cert.KernelIdeal.Gen.W4_of_ne m ρ c Cert.KernelIdeal.main_v3 (by decide)))))).trans (g_v3.trans (by after_results_simp : (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))) (Proc.devRef .tc Cert.ReferenceIdeal.main_v3) = (after Cert.ReferenceIdeal.HostRun.segPre (launchContents m' c)) (Proc.devRef .tc Cert.ReferenceIdeal.main_v3)).symm)
  have q6 : (Cert.KernelIdeal.Gen.W8 m ρ c) (Proc.devRef .tc Cert.KernelIdeal.main_v6) = (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))) (Proc.devRef .tc Cert.ReferenceIdeal.main_v6) :=
    ((Cert.KernelIdeal.Gen.W8_of_ne m ρ c Cert.KernelIdeal.main_v6 (by decide)).trans ((by after_results_simp : after Cert.KernelIdeal.Gen.hostOps2 (Cert.KernelIdeal.Gen.W6 m ρ c) (Proc.devRef .tc Cert.KernelIdeal.main_v6) = (Cert.KernelIdeal.Gen.W6 m ρ c) (Proc.devRef .tc Cert.KernelIdeal.main_v6)).trans ((Cert.KernelIdeal.Gen.W6_of_ne m ρ c Cert.KernelIdeal.main_v6 (by decide)).trans ((by after_results_simp : after Cert.KernelIdeal.Gen.hostOps1 (Cert.KernelIdeal.Gen.W4 m ρ c) (Proc.devRef .tc Cert.KernelIdeal.main_v6) = (Cert.KernelIdeal.Gen.W4 m ρ c) (Proc.devRef .tc Cert.KernelIdeal.main_v6)).trans (Cert.KernelIdeal.Gen.W4_of_ne m ρ c Cert.KernelIdeal.main_v6 (by decide)))))).trans (g_v6.trans (by after_results_simp : (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))) (Proc.devRef .tc Cert.ReferenceIdeal.main_v6) = (after Cert.ReferenceIdeal.HostRun.segPre (launchContents m' c)) (Proc.devRef .tc Cert.ReferenceIdeal.main_v6)).symm)
  have q32 : (Cert.KernelIdeal.Gen.W8 m ρ c) (Proc.devRef .tc Cert.KernelIdeal.main_v32) = (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))) (Proc.devRef .tc Cert.ReferenceIdeal.main_v32) :=
    ((Cert.KernelIdeal.Gen.W8_of_ne m ρ c Cert.KernelIdeal.main_v32 (by decide)).trans ((by after_results_simp : after Cert.KernelIdeal.Gen.hostOps2 (Cert.KernelIdeal.Gen.W6 m ρ c) (Proc.devRef .tc Cert.KernelIdeal.main_v32) = (Cert.KernelIdeal.Gen.W6 m ρ c) (Proc.devRef .tc Cert.KernelIdeal.main_v32)).trans ((Cert.KernelIdeal.Gen.W6_of_ne m ρ c Cert.KernelIdeal.main_v32 (by decide)).trans ((by after_results_simp : after Cert.KernelIdeal.Gen.hostOps1 (Cert.KernelIdeal.Gen.W4 m ρ c) (Proc.devRef .tc Cert.KernelIdeal.main_v32) = (Cert.KernelIdeal.Gen.W4 m ρ c) (Proc.devRef .tc Cert.KernelIdeal.main_v32)).trans (Cert.KernelIdeal.Gen.W4_of_ne m ρ c Cert.KernelIdeal.main_v32 (by decide)))))).trans (g_v32.trans (by after_results_simp : (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))) (Proc.devRef .tc Cert.ReferenceIdeal.main_v32) = (after Cert.ReferenceIdeal.HostRun.segPre (launchContents m' c)) (Proc.devRef .tc Cert.ReferenceIdeal.main_v32)).symm)
  have t62 : (Cert.KernelIdeal.Gen.W9 m ρ c) (Proc.devRef .tc Cert.KernelIdeal.main_v62) = (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_v101) := agg1 (Cert.KernelIdeal.Gen.W8 m ρ c) (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))) t50 q3 q6 q32
  -- region 3: layer 1 and the head
  have f62 : Cert.KernelIdeal.Gen.V9 m ρ c Cert.KernelIdeal.main_v62 = (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_v101) := t62
  have f9 : Cert.KernelIdeal.Gen.V9 m ρ c Cert.KernelIdeal.main_arg9 = (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg9) :=
    (((by after_results_simp : after Cert.KernelIdeal.Gen.hostOps3 (Cert.KernelIdeal.Gen.W8 m ρ c) (Proc.devRef .tc Cert.KernelIdeal.main_arg9) = (Cert.KernelIdeal.Gen.W8 m ρ c) (Proc.devRef .tc Cert.KernelIdeal.main_arg9)).trans ((Cert.KernelIdeal.Gen.W8_of_ne m ρ c Cert.KernelIdeal.main_arg9 (by decide)).trans ((by after_results_simp : after Cert.KernelIdeal.Gen.hostOps2 (Cert.KernelIdeal.Gen.W6 m ρ c) (Proc.devRef .tc Cert.KernelIdeal.main_arg9) = (Cert.KernelIdeal.Gen.W6 m ρ c) (Proc.devRef .tc Cert.KernelIdeal.main_arg9)).trans ((Cert.KernelIdeal.Gen.W6_of_ne m ρ c Cert.KernelIdeal.main_arg9 (by decide)).trans ((by after_results_simp : after Cert.KernelIdeal.Gen.hostOps1 (Cert.KernelIdeal.Gen.W4 m ρ c) (Proc.devRef .tc Cert.KernelIdeal.main_arg9) = (Cert.KernelIdeal.Gen.W4 m ρ c) (Proc.devRef .tc Cert.KernelIdeal.main_arg9)).trans ((Cert.KernelIdeal.Gen.W4_of_ne m ρ c Cert.KernelIdeal.main_arg9 (by decide)).trans (by after_results_simp <;> rfl : (Cert.KernelIdeal.Gen.W3 m ρ c) (Proc.devRef .tc Cert.KernelIdeal.main_arg9) = m ((c.tc : Thread Cert.KernelIdeal.nD Cert.KernelIdeal.τ).loc Cert.KernelIdeal.main_arg9)))))))).trans (h9.symm.trans (by after_results_simp <;> rfl : (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg9) = m' ((c.tc : Thread Cert.ReferenceIdeal.nD Cert.ReferenceIdeal.τ).loc Cert.ReferenceIdeal.main_arg9)).symm))
  have f12 : Cert.KernelIdeal.Gen.V9 m ρ c Cert.KernelIdeal.main_arg12 = (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg12) :=
    (((by after_results_simp : after Cert.KernelIdeal.Gen.hostOps3 (Cert.KernelIdeal.Gen.W8 m ρ c) (Proc.devRef .tc Cert.KernelIdeal.main_arg12) = (Cert.KernelIdeal.Gen.W8 m ρ c) (Proc.devRef .tc Cert.KernelIdeal.main_arg12)).trans ((Cert.KernelIdeal.Gen.W8_of_ne m ρ c Cert.KernelIdeal.main_arg12 (by decide)).trans ((by after_results_simp : after Cert.KernelIdeal.Gen.hostOps2 (Cert.KernelIdeal.Gen.W6 m ρ c) (Proc.devRef .tc Cert.KernelIdeal.main_arg12) = (Cert.KernelIdeal.Gen.W6 m ρ c) (Proc.devRef .tc Cert.KernelIdeal.main_arg12)).trans ((Cert.KernelIdeal.Gen.W6_of_ne m ρ c Cert.KernelIdeal.main_arg12 (by decide)).trans ((by after_results_simp : after Cert.KernelIdeal.Gen.hostOps1 (Cert.KernelIdeal.Gen.W4 m ρ c) (Proc.devRef .tc Cert.KernelIdeal.main_arg12) = (Cert.KernelIdeal.Gen.W4 m ρ c) (Proc.devRef .tc Cert.KernelIdeal.main_arg12)).trans ((Cert.KernelIdeal.Gen.W4_of_ne m ρ c Cert.KernelIdeal.main_arg12 (by decide)).trans (by after_results_simp <;> rfl : (Cert.KernelIdeal.Gen.W3 m ρ c) (Proc.devRef .tc Cert.KernelIdeal.main_arg12) = m ((c.tc : Thread Cert.KernelIdeal.nD Cert.KernelIdeal.τ).loc Cert.KernelIdeal.main_arg12)))))))).trans (h12.symm.trans (by after_results_simp <;> rfl : (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg12) = m' ((c.tc : Thread Cert.ReferenceIdeal.nD Cert.ReferenceIdeal.τ).loc Cert.ReferenceIdeal.main_arg12)).symm))
  have f13 : Cert.KernelIdeal.Gen.V9 m ρ c Cert.KernelIdeal.main_arg13 = (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg13) :=
    (((by after_results_simp : after Cert.KernelIdeal.Gen.hostOps3 (Cert.KernelIdeal.Gen.W8 m ρ c) (Proc.devRef .tc Cert.KernelIdeal.main_arg13) = (Cert.KernelIdeal.Gen.W8 m ρ c) (Proc.devRef .tc Cert.KernelIdeal.main_arg13)).trans ((Cert.KernelIdeal.Gen.W8_of_ne m ρ c Cert.KernelIdeal.main_arg13 (by decide)).trans ((by after_results_simp : after Cert.KernelIdeal.Gen.hostOps2 (Cert.KernelIdeal.Gen.W6 m ρ c) (Proc.devRef .tc Cert.KernelIdeal.main_arg13) = (Cert.KernelIdeal.Gen.W6 m ρ c) (Proc.devRef .tc Cert.KernelIdeal.main_arg13)).trans ((Cert.KernelIdeal.Gen.W6_of_ne m ρ c Cert.KernelIdeal.main_arg13 (by decide)).trans ((by after_results_simp : after Cert.KernelIdeal.Gen.hostOps1 (Cert.KernelIdeal.Gen.W4 m ρ c) (Proc.devRef .tc Cert.KernelIdeal.main_arg13) = (Cert.KernelIdeal.Gen.W4 m ρ c) (Proc.devRef .tc Cert.KernelIdeal.main_arg13)).trans ((Cert.KernelIdeal.Gen.W4_of_ne m ρ c Cert.KernelIdeal.main_arg13 (by decide)).trans (by after_results_simp <;> rfl : (Cert.KernelIdeal.Gen.W3 m ρ c) (Proc.devRef .tc Cert.KernelIdeal.main_arg13) = m ((c.tc : Thread Cert.KernelIdeal.nD Cert.KernelIdeal.τ).loc Cert.KernelIdeal.main_arg13)))))))).trans (h13.symm.trans (by after_results_simp <;> rfl : (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg13) = m' ((c.tc : Thread Cert.ReferenceIdeal.nD Cert.ReferenceIdeal.τ).loc Cert.ReferenceIdeal.main_arg13)).symm))
  have f15 : Cert.KernelIdeal.Gen.V9 m ρ c Cert.KernelIdeal.main_arg15 = (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg15) :=
    (((by after_results_simp : after Cert.KernelIdeal.Gen.hostOps3 (Cert.KernelIdeal.Gen.W8 m ρ c) (Proc.devRef .tc Cert.KernelIdeal.main_arg15) = (Cert.KernelIdeal.Gen.W8 m ρ c) (Proc.devRef .tc Cert.KernelIdeal.main_arg15)).trans ((Cert.KernelIdeal.Gen.W8_of_ne m ρ c Cert.KernelIdeal.main_arg15 (by decide)).trans ((by after_results_simp : after Cert.KernelIdeal.Gen.hostOps2 (Cert.KernelIdeal.Gen.W6 m ρ c) (Proc.devRef .tc Cert.KernelIdeal.main_arg15) = (Cert.KernelIdeal.Gen.W6 m ρ c) (Proc.devRef .tc Cert.KernelIdeal.main_arg15)).trans ((Cert.KernelIdeal.Gen.W6_of_ne m ρ c Cert.KernelIdeal.main_arg15 (by decide)).trans ((by after_results_simp : after Cert.KernelIdeal.Gen.hostOps1 (Cert.KernelIdeal.Gen.W4 m ρ c) (Proc.devRef .tc Cert.KernelIdeal.main_arg15) = (Cert.KernelIdeal.Gen.W4 m ρ c) (Proc.devRef .tc Cert.KernelIdeal.main_arg15)).trans ((Cert.KernelIdeal.Gen.W4_of_ne m ρ c Cert.KernelIdeal.main_arg15 (by decide)).trans (by after_results_simp <;> rfl : (Cert.KernelIdeal.Gen.W3 m ρ c) (Proc.devRef .tc Cert.KernelIdeal.main_arg15) = m ((c.tc : Thread Cert.KernelIdeal.nD Cert.KernelIdeal.τ).loc Cert.KernelIdeal.main_arg15)))))))).trans (h15.symm.trans (by after_results_simp <;> rfl : (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg15) = m' ((c.tc : Thread Cert.ReferenceIdeal.nD Cert.ReferenceIdeal.τ).loc Cert.ReferenceIdeal.main_arg15)).symm))
  have a10 : (Cert.KernelIdeal.Gen.W8 m ρ c) (Proc.devRef .tc Cert.KernelIdeal.main_arg10) = (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg10) :=
    (((Cert.KernelIdeal.Gen.W8_of_ne m ρ c Cert.KernelIdeal.main_arg10 (by decide)).trans ((by after_results_simp : after Cert.KernelIdeal.Gen.hostOps2 (Cert.KernelIdeal.Gen.W6 m ρ c) (Proc.devRef .tc Cert.KernelIdeal.main_arg10) = (Cert.KernelIdeal.Gen.W6 m ρ c) (Proc.devRef .tc Cert.KernelIdeal.main_arg10)).trans ((Cert.KernelIdeal.Gen.W6_of_ne m ρ c Cert.KernelIdeal.main_arg10 (by decide)).trans ((by after_results_simp : after Cert.KernelIdeal.Gen.hostOps1 (Cert.KernelIdeal.Gen.W4 m ρ c) (Proc.devRef .tc Cert.KernelIdeal.main_arg10) = (Cert.KernelIdeal.Gen.W4 m ρ c) (Proc.devRef .tc Cert.KernelIdeal.main_arg10)).trans ((Cert.KernelIdeal.Gen.W4_of_ne m ρ c Cert.KernelIdeal.main_arg10 (by decide)).trans (by after_results_simp <;> rfl : (Cert.KernelIdeal.Gen.W3 m ρ c) (Proc.devRef .tc Cert.KernelIdeal.main_arg10) = m ((c.tc : Thread Cert.KernelIdeal.nD Cert.KernelIdeal.τ).loc Cert.KernelIdeal.main_arg10))))))).trans (h10.symm.trans (by after_results_simp <;> rfl : (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg10) = m' ((c.tc : Thread Cert.ReferenceIdeal.nD Cert.ReferenceIdeal.τ).loc Cert.ReferenceIdeal.main_arg10)).symm))
  have a14 : (Cert.KernelIdeal.Gen.W8 m ρ c) (Proc.devRef .tc Cert.KernelIdeal.main_arg14) = (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg14) :=
    (((Cert.KernelIdeal.Gen.W8_of_ne m ρ c Cert.KernelIdeal.main_arg14 (by decide)).trans ((by after_results_simp : after Cert.KernelIdeal.Gen.hostOps2 (Cert.KernelIdeal.Gen.W6 m ρ c) (Proc.devRef .tc Cert.KernelIdeal.main_arg14) = (Cert.KernelIdeal.Gen.W6 m ρ c) (Proc.devRef .tc Cert.KernelIdeal.main_arg14)).trans ((Cert.KernelIdeal.Gen.W6_of_ne m ρ c Cert.KernelIdeal.main_arg14 (by decide)).trans ((by after_results_simp : after Cert.KernelIdeal.Gen.hostOps1 (Cert.KernelIdeal.Gen.W4 m ρ c) (Proc.devRef .tc Cert.KernelIdeal.main_arg14) = (Cert.KernelIdeal.Gen.W4 m ρ c) (Proc.devRef .tc Cert.KernelIdeal.main_arg14)).trans ((Cert.KernelIdeal.Gen.W4_of_ne m ρ c Cert.KernelIdeal.main_arg14 (by decide)).trans (by after_results_simp <;> rfl : (Cert.KernelIdeal.Gen.W3 m ρ c) (Proc.devRef .tc Cert.KernelIdeal.main_arg14) = m ((c.tc : Thread Cert.KernelIdeal.nD Cert.KernelIdeal.τ).loc Cert.KernelIdeal.main_arg14))))))).trans (h14.symm.trans (by after_results_simp <;> rfl : (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg14) = m' ((c.tc : Thread Cert.ReferenceIdeal.nD Cert.ReferenceIdeal.τ).loc Cert.ReferenceIdeal.main_arg14)).symm))
  have f63 : Cert.KernelIdeal.Gen.V9 m ρ c Cert.KernelIdeal.main_v63 = transpose Cert.ReferenceIdeal.S128x384 [1, 0] ((after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg10)) Cert.ReferenceIdeal.Gen.transposes_S384x128_S128x384_1_0 :=
    (kWih1 (Cert.KernelIdeal.Gen.W8 m ρ c)).trans (by rw [a10] <;> rfl)
  have f64 : Cert.KernelIdeal.Gen.V9 m ρ c Cert.KernelIdeal.main_v64 = transpose Cert.ReferenceIdeal.S128x2 [1, 0] ((after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c)))))))) (Proc.devRef .tc Cert.ReferenceIdeal.main_arg14)) Cert.ReferenceIdeal.Gen.transposes_S2x128_S128x2_1_0 :=
    (kWlin (Cert.KernelIdeal.Gen.W8 m ρ c)).trans (by rw [a14] <;> rfl)
  have t65 : (Cert.KernelIdeal.Gen.W10 m ρ c) (Proc.devRef .tc Cert.KernelIdeal.main_v65) = (after Cert.ReferenceIdeal.HostRun.segLayer1 (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))))) (Proc.devRef .tc Cert.ReferenceIdeal.main_v147) :=
    (Cert.KernelIdeal.Gen.W10_arr m ρ c 7).trans ((Cert.KernelIdeal.Region.final3 (Cert.KernelIdeal.Gen.V9 m ρ) c).trans
      (Eq.trans (by rw [f62, f9, f63, f12, f13, f64, f15]) (Cert.ReferenceIdeal.HostRun.stepLayer1 (after Cert.ReferenceIdeal.HostRun.segAgg1 (after Cert.ReferenceIdeal.HostRun.segH (after Cert.ReferenceIdeal.HostRun.segW1 (after Cert.ReferenceIdeal.HostRun.segLayer0 (after Cert.ReferenceIdeal.HostRun.segAgg0 (after Cert.ReferenceIdeal.HostRun.segX (after Cert.ReferenceIdeal.HostRun.segPre (launchContents m' c))))))))).symm))
  exact t65.trans (Cert.ReferenceIdeal.HostRun.held_split m' c Cert.ReferenceIdeal.main_v147).symm

end Cert.Bridge

end
-- ==== Proof.lean ====
/-
  A two-layer graph network over 100000 nodes — per layer a feature transform, a normalised sum over each node's
  incoming edges (self loops added), a bias and rectifier, and a gated recurrent cell at a zero previous state; then a
  linear head — computed two ways.  The reference does everything with host operations.  The kernel program keeps the
  edge-indexed gather and scatter on the host, op for op as the reference has them, and runs the four dense stages
  (two transforms, two gated layers, the second fused with the head) as kernels tiled over blocks of 2000 nodes.

  At the ideal values the two agree exactly, with no use of finiteness: a dense stage acts on each node's row
  independently, a block of 2000 rows is computed from the same 2000 rows of the operand, and within a row the kernel
  and the reference apply the same operations in the same order — a change of float format is the identity, a product
  into a zero accumulator is the plain sum, and the logistic operation is the quotient `1 / (1 + e⁻ˣ)` the reference
  spells out.  Proof/RegionValues.lean turns each region's blocks into one function of its arrays; Proof/ResultEq.lean
  walks the two programs side by side.  The ideal pass rewrote nothing, so the kernel's idealization is its own text.
  The three frames: the two kernel programs' are the generated ones; the reference's is its run with the result dropped.
-/
import proofs.«153861_j44822278701843_1_alg».proof.Defs
import proofs.«153861_j44822278701843_1_alg».proof.Proof.Gen.Kernel
import proofs.«153861_j44822278701843_1_alg».proof.Proof.Gen.Kernel.Skeleton
import proofs.«153861_j44822278701843_1_alg».proof.Proof.Gen.Kernel.Launch
import proofs.«153861_j44822278701843_1_alg».proof.Proof.Gen.Kernel.Points
import proofs.«153861_j44822278701843_1_alg».proof.Proof.Gen.Kernel.Frame
import proofs.«153861_j44822278701843_1_alg».proof.Proof.Gen.KernelIdeal
import proofs.«153861_j44822278701843_1_alg».proof.Proof.Gen.KernelIdeal.Skeleton
import proofs.«153861_j44822278701843_1_alg».proof.Proof.Gen.KernelIdeal.Launch
import proofs.«153861_j44822278701843_1_alg».proof.Proof.Gen.KernelIdeal.Points
import proofs.«153861_j44822278701843_1_alg».proof.Proof.Gen.KernelIdeal.Frame
import proofs.«153861_j44822278701843_1_alg».proof.Proof.Gen.ReferenceIdeal
import proofs.«153861_j44822278701843_1_alg».proof.Proof.Gen.Pre_finite_inputs
import proofs.«153861_j44822278701843_1_alg».proof.Proof.ResultEq
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

section RefKept

variable {F : FTy → Type} [FloatOps F] (m : (ℓ : Loc Cert.ReferenceIdeal.nD Cert.ReferenceIdeal.τ Cert.ReferenceIdeal.sig) → Buf (Elt F) ℓ) (d : Dev Cert.ReferenceIdeal.nD)

/-! No operation of the reference writes an argument array. -/
theorem ref_kept0 : Cert.ReferenceIdeal.HostRun.held m d Cert.ReferenceIdeal.main_arg0 = m ((d.tc : Thread Cert.ReferenceIdeal.nD Cert.ReferenceIdeal.τ).loc Cert.ReferenceIdeal.main_arg0) := by
  unfold Cert.ReferenceIdeal.HostRun.held
  after_results_simp <;> rfl
theorem ref_kept1 : Cert.ReferenceIdeal.HostRun.held m d Cert.ReferenceIdeal.main_arg1 = m ((d.tc : Thread Cert.ReferenceIdeal.nD Cert.ReferenceIdeal.τ).loc Cert.ReferenceIdeal.main_arg1) := by
  unfold Cert.ReferenceIdeal.HostRun.held
  after_results_simp <;> rfl
theorem ref_kept2 : Cert.ReferenceIdeal.HostRun.held m d Cert.ReferenceIdeal.main_arg2 = m ((d.tc : Thread Cert.ReferenceIdeal.nD Cert.ReferenceIdeal.τ).loc Cert.ReferenceIdeal.main_arg2) := by
  unfold Cert.ReferenceIdeal.HostRun.held
  after_results_simp <;> rfl
theorem ref_kept3 : Cert.ReferenceIdeal.HostRun.held m d Cert.ReferenceIdeal.main_arg3 = m ((d.tc : Thread Cert.ReferenceIdeal.nD Cert.ReferenceIdeal.τ).loc Cert.ReferenceIdeal.main_arg3) := by
  unfold Cert.ReferenceIdeal.HostRun.held
  after_results_simp <;> rfl
theorem ref_kept4 : Cert.ReferenceIdeal.HostRun.held m d Cert.ReferenceIdeal.main_arg4 = m ((d.tc : Thread Cert.ReferenceIdeal.nD Cert.ReferenceIdeal.τ).loc Cert.ReferenceIdeal.main_arg4) := by
  unfold Cert.ReferenceIdeal.HostRun.held
  after_results_simp <;> rfl
theorem ref_kept5 : Cert.ReferenceIdeal.HostRun.held m d Cert.ReferenceIdeal.main_arg5 = m ((d.tc : Thread Cert.ReferenceIdeal.nD Cert.ReferenceIdeal.τ).loc Cert.ReferenceIdeal.main_arg5) := by
  unfold Cert.ReferenceIdeal.HostRun.held
  after_results_simp <;> rfl
theorem ref_kept6 : Cert.ReferenceIdeal.HostRun.held m d Cert.ReferenceIdeal.main_arg6 = m ((d.tc : Thread Cert.ReferenceIdeal.nD Cert.ReferenceIdeal.τ).loc Cert.ReferenceIdeal.main_arg6) := by
  unfold Cert.ReferenceIdeal.HostRun.held
  after_results_simp <;> rfl
theorem ref_kept7 : Cert.ReferenceIdeal.HostRun.held m d Cert.ReferenceIdeal.main_arg7 = m ((d.tc : Thread Cert.ReferenceIdeal.nD Cert.ReferenceIdeal.τ).loc Cert.ReferenceIdeal.main_arg7) := by
  unfold Cert.ReferenceIdeal.HostRun.held
  after_results_simp <;> rfl
theorem ref_kept8 : Cert.ReferenceIdeal.HostRun.held m d Cert.ReferenceIdeal.main_arg8 = m ((d.tc : Thread Cert.ReferenceIdeal.nD Cert.ReferenceIdeal.τ).loc Cert.ReferenceIdeal.main_arg8) := by
  unfold Cert.ReferenceIdeal.HostRun.held
  after_results_simp <;> rfl
theorem ref_kept9 : Cert.ReferenceIdeal.HostRun.held m d Cert.ReferenceIdeal.main_arg9 = m ((d.tc : Thread Cert.ReferenceIdeal.nD Cert.ReferenceIdeal.τ).loc Cert.ReferenceIdeal.main_arg9) := by
  unfold Cert.ReferenceIdeal.HostRun.held
  after_results_simp <;> rfl
theorem ref_kept10 : Cert.ReferenceIdeal.HostRun.held m d Cert.ReferenceIdeal.main_arg10 = m ((d.tc : Thread Cert.ReferenceIdeal.nD Cert.ReferenceIdeal.τ).loc Cert.ReferenceIdeal.main_arg10) := by
  unfold Cert.ReferenceIdeal.HostRun.held
  after_results_simp <;> rfl
theorem ref_kept11 : Cert.ReferenceIdeal.HostRun.held m d Cert.ReferenceIdeal.main_arg11 = m ((d.tc : Thread Cert.ReferenceIdeal.nD Cert.ReferenceIdeal.τ).loc Cert.ReferenceIdeal.main_arg11) := by
  unfold Cert.ReferenceIdeal.HostRun.held
  after_results_simp <;> rfl
theorem ref_kept12 : Cert.ReferenceIdeal.HostRun.held m d Cert.ReferenceIdeal.main_arg12 = m ((d.tc : Thread Cert.ReferenceIdeal.nD Cert.ReferenceIdeal.τ).loc Cert.ReferenceIdeal.main_arg12) := by
  unfold Cert.ReferenceIdeal.HostRun.held
  after_results_simp <;> rfl
theorem ref_kept13 : Cert.ReferenceIdeal.HostRun.held m d Cert.ReferenceIdeal.main_arg13 = m ((d.tc : Thread Cert.ReferenceIdeal.nD Cert.ReferenceIdeal.τ).loc Cert.ReferenceIdeal.main_arg13) := by
  unfold Cert.ReferenceIdeal.HostRun.held
  after_results_simp <;> rfl
theorem ref_kept14 : Cert.ReferenceIdeal.HostRun.held m d Cert.ReferenceIdeal.main_arg14 = m ((d.tc : Thread Cert.ReferenceIdeal.nD Cert.ReferenceIdeal.τ).loc Cert.ReferenceIdeal.main_arg14) := by
  unfold Cert.ReferenceIdeal.HostRun.held
  after_results_simp <;> rfl
theorem ref_kept15 : Cert.ReferenceIdeal.HostRun.held m d Cert.ReferenceIdeal.main_arg15 = m ((d.tc : Thread Cert.ReferenceIdeal.nD Cert.ReferenceIdeal.τ).loc Cert.ReferenceIdeal.main_arg15) := by
  unfold Cert.ReferenceIdeal.HostRun.held
  after_results_simp <;> rfl

end RefKept

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun r h c =>
      ⟨(h c Cert.ReferenceIdeal.main_arg0).trans (ref_kept0 m c),
        (h c Cert.ReferenceIdeal.main_arg1).trans (ref_kept1 m c),
        (h c Cert.ReferenceIdeal.main_arg2).trans (ref_kept2 m c),
        (h c Cert.ReferenceIdeal.main_arg3).trans (ref_kept3 m c),
        (h c Cert.ReferenceIdeal.main_arg4).trans (ref_kept4 m c),
        (h c Cert.ReferenceIdeal.main_arg5).trans (ref_kept5 m c),
        (h c Cert.ReferenceIdeal.main_arg6).trans (ref_kept6 m c),
        (h c Cert.ReferenceIdeal.main_arg7).trans (ref_kept7 m c),
        (h c Cert.ReferenceIdeal.main_arg8).trans (ref_kept8 m c),
        (h c Cert.ReferenceIdeal.main_arg9).trans (ref_kept9 m c),
        (h c Cert.ReferenceIdeal.main_arg10).trans (ref_kept10 m c),
        (h c Cert.ReferenceIdeal.main_arg11).trans (ref_kept11 m c),
        (h c Cert.ReferenceIdeal.main_arg12).trans (ref_kept12 m c),
        (h c Cert.ReferenceIdeal.main_arg13).trans (ref_kept13 m c),
        (h c Cert.ReferenceIdeal.main_arg14).trans (ref_kept14 m c),
        (h c Cert.ReferenceIdeal.main_arg15).trans (ref_kept15 m c)⟩)
    (Cert.ReferenceIdeal.HostRun.run_after (F := Ideal) m ρ)

/-- Both idealized programs run; the kernel program's result array ends at the contents of its last segment boundary,
    and the reference's ends at the fold of its operations, which is the same array when the memories agree on the
    arguments. -/
theorem algebraic : Cert.algebraic_KernelIdeal_ReferenceIdeal := by
  intro m ρ m' ρ' _ hagree
  refine ⟨fun c => Cert.KernelIdeal.Gen.W10 m ρ c (Proc.devRef .tc Cert.KernelIdeal.main_v65), ?_, ?_⟩
  · exact (θ_run Cert.KernelIdeal.defs _ _).mono (fun r h c =>
      ⟨h c _ Cert.KernelIdeal.Whole.v65_mem,
        (h c _ (Cert.KernelIdeal.Gen.mem_uc Cert.KernelIdeal.main_arg0 (by decide))).trans (Cert.KernelIdeal.Gen.W10_main_arg0 m ρ c),
        (h c _ (Cert.KernelIdeal.Gen.mem_uc Cert.KernelIdeal.main_arg1 (by decide))).trans (Cert.KernelIdeal.Gen.W10_main_arg1 m ρ c),
        (h c _ (Cert.KernelIdeal.Gen.mem_uc Cert.KernelIdeal.main_arg2 (by decide))).trans (Cert.KernelIdeal.Gen.W10_main_arg2 m ρ c),
        (h c _ (Cert.KernelIdeal.Gen.mem_uc Cert.KernelIdeal.main_arg3 (by decide))).trans (Cert.KernelIdeal.Gen.W10_main_arg3 m ρ c),
        (h c _ (Cert.KernelIdeal.Gen.mem_uc Cert.KernelIdeal.main_arg4 (by decide))).trans (Cert.KernelIdeal.Gen.W10_main_arg4 m ρ c),
        (h c _ (Cert.KernelIdeal.Gen.mem_uc Cert.KernelIdeal.main_arg5 (by decide))).trans (Cert.KernelIdeal.Gen.W10_main_arg5 m ρ c),
        (h c _ (Cert.KernelIdeal.Gen.mem_uc Cert.KernelIdeal.main_arg6 (by decide))).trans (Cert.KernelIdeal.Gen.W10_main_arg6 m ρ c),
        (h c _ (Cert.KernelIdeal.Gen.mem_uc Cert.KernelIdeal.main_arg7 (by decide))).trans (Cert.KernelIdeal.Gen.W10_main_arg7 m ρ c),
        (h c _ (Cert.KernelIdeal.Gen.mem_uc Cert.KernelIdeal.main_arg8 (by decide))).trans (Cert.KernelIdeal.Gen.W10_main_arg8 m ρ c),
        (h c _ (Cert.KernelIdeal.Gen.mem_uc Cert.KernelIdeal.main_arg9 (by decide))).trans (Cert.KernelIdeal.Gen.W10_main_arg9 m ρ c),
        (h c _ (Cert.KernelIdeal.Gen.mem_uc Cert.KernelIdeal.main_arg10 (by decide))).trans (Cert.KernelIdeal.Gen.W10_main_arg10 m ρ c),
        (h c _ (Cert.KernelIdeal.Gen.mem_uc Cert.KernelIdeal.main_arg11 (by decide))).trans (Cert.KernelIdeal.Gen.W10_main_arg11 m ρ c),
        (h c _ (Cert.KernelIdeal.Gen.mem_uc Cert.KernelIdeal.main_arg12 (by decide))).trans (Cert.KernelIdeal.Gen.W10_main_arg12 m ρ c),
        (h c _ (Cert.KernelIdeal.Gen.mem_uc Cert.KernelIdeal.main_arg13 (by decide))).trans (Cert.KernelIdeal.Gen.W10_main_arg13 m ρ c),
        (h c _ (Cert.KernelIdeal.Gen.mem_uc Cert.KernelIdeal.main_arg14 (by decide))).trans (Cert.KernelIdeal.Gen.W10_main_arg14 m ρ c),
        (h c _ (Cert.KernelIdeal.Gen.mem_uc Cert.KernelIdeal.main_arg15 (by decide))).trans (Cert.KernelIdeal.Gen.W10_main_arg15 m ρ c)⟩)
      (Cert.KernelIdeal.Whole.run_all (F := Ideal) m ρ)
  · exact (θ_run Cert.ReferenceIdeal.defs _ _).mono (fun r h c =>
      ⟨(h c Cert.ReferenceIdeal.main_v147).trans (Cert.Bridge.result_eq m ρ m' c (hagree c)).symm,
        (h c Cert.ReferenceIdeal.main_arg0).trans (ref_kept0 m' c),
        (h c Cert.ReferenceIdeal.main_arg1).trans (ref_kept1 m' c),
        (h c Cert.ReferenceIdeal.main_arg2).trans (ref_kept2 m' c),
        (h c Cert.ReferenceIdeal.main_arg3).trans (ref_kept3 m' c),
        (h c Cert.ReferenceIdeal.main_arg4).trans (ref_kept4 m' c),
        (h c Cert.ReferenceIdeal.main_arg5).trans (ref_kept5 m' c),
        (h c Cert.ReferenceIdeal.main_arg6).trans (ref_kept6 m' c),
        (h c Cert.ReferenceIdeal.main_arg7).trans (ref_kept7 m' c),
        (h c Cert.ReferenceIdeal.main_arg8).trans (ref_kept8 m' c),
        (h c Cert.ReferenceIdeal.main_arg9).trans (ref_kept9 m' c),
        (h c Cert.ReferenceIdeal.main_arg10).trans (ref_kept10 m' c),
        (h c Cert.ReferenceIdeal.main_arg11).trans (ref_kept11 m' c),
        (h c Cert.ReferenceIdeal.main_arg12).trans (ref_kept12 m' c),
        (h c Cert.ReferenceIdeal.main_arg13).trans (ref_kept13 m' c),
        (h c Cert.ReferenceIdeal.main_arg14).trans (ref_kept14 m' c),
        (h c Cert.ReferenceIdeal.main_arg15).trans (ref_kept15 m' c)⟩)
      (Cert.ReferenceIdeal.HostRun.run_after (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
